-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v98)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v98) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v146) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S800000 : Shape := ⟨1, ![800000]⟩
abbrev S256x128 : Shape := ⟨2, ![256, 128]⟩
abbrev S128 : Shape := ⟨1, ![128]⟩
abbrev S128x128 : Shape := ⟨2, ![128, 128]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S800000 : S_.BroadcastsInDim S800000 (![] : Fin 0 → Fin S800000.rank)
  reducesTo_S800000_S_d0 : S800000.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part2 {F : FTy → Type} [FloatOps F] (main_arg8 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg5 : FVec F S128x128 .f32) (main_arg6 : FVec F S128 .f32) (main_arg7 : FVec F S128x128 .f32) (main_arg8 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_v33

def fn {F : FTy → Type} [FloatOps F] (main_arg0 : FVec F S50000x256 .f32) (main_arg1 : IVec S2x800000 32) (main_arg2 : FVec F S800000 .f32) (main_arg3 : FVec F S256x128 .f32) (main_arg4 : FVec F S128 .f32) (main_arg5 : FVec F S128x128 .f32) (main_arg6 : FVec F S128 .f32) (main_arg7 : FVec F S128x128 .f32) (main_arg8 : FVec F S128 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S256x128 .f32 := Host.absf main_arg3
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_v13 main_v16
-- ==== Kernel.lean ====
abbrev S50000x256 : Shape := ⟨2, ![50000, 256]⟩
abbrev S2x800000 : Shape := ⟨2, ![2, 800000]⟩
abbrev S800000 : Shape := ⟨1, ![800000]⟩
abbrev S256x128 : Shape := ⟨2, ![256, 128]⟩
abbrev S128 : Shape := ⟨1, ![128]⟩
abbrev S128x128 : Shape := ⟨2, ![128, 128]⟩
abbrev S1x800000 : Shape := ⟨2, ![1, 800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S50000x128 : Shape := ⟨2, ![50000, 128]⟩
abbrev S2000x256 : Shape := ⟨2, ![2000, 256]⟩
abbrev S2000x128 : Shape := ⟨2, ![2000, 128]⟩
abbrev S800000x128 : Shape := ⟨2, ![800000, 128]⟩
abbrev S1x128 : Shape := ⟨2, ![1, 128]⟩

abbrev nBuf : Space → Nat
  | .hbm => 131
  | .vmem => 15
  | .smem => 0
  | _ => 0

abbrev hbmTy0_0 (i : Nat) : BufTy := match i % 128 with
  | 0 => ⟨S50000x256, .f32⟩
  | 1 => ⟨S2x800000, .i32⟩
  | 2 => ⟨S800000, .f32⟩
  | 3 => ⟨S256x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S1x800000, .i32⟩
  | 10 => ⟨S800000, .i32⟩
  | 11 => ⟨S1x800000, .i32⟩
  | 12 => ⟨S800000, .i32⟩
  | 13 => ⟨S_, .f32⟩
  | 14 => ⟨S50000, .f32⟩
  | 15 => ⟨S800000x1, .i32⟩
  | 16 => ⟨S50000, .f32⟩
  | 17 => ⟨S_, .f32⟩
  | 18 => ⟨S50000, .f32⟩
  | 19 => ⟨S50000, .f32⟩
  | 20 => ⟨S_, .f32⟩
  | 21 => ⟨S50000, .f32⟩
  | 22 => ⟨S50000, .i1⟩
  | 23 => ⟨S50000, .f32⟩
  | 24 => ⟨S_, .f32⟩
  | 25 => ⟨S_, .f32⟩
  | 26 => ⟨S50000, .f32⟩
  | 27 => ⟨S50000, .f32⟩
  | 28 => ⟨S_, .i32⟩
  | 29 => ⟨S800000, .i32⟩
  | 30 => ⟨S800000, .i1⟩
  | 31 => ⟨S_, .i32⟩
  | 32 => ⟨S800000, .i32⟩
  | 33 => ⟨S800000, .i32⟩
  | 34 => ⟨S800000, .i32⟩
  | 35 => ⟨S800000x1, .i32⟩
  | 36 => ⟨S800000, .f32⟩
  | 37 => ⟨S800000, .f32⟩
  | 38 => ⟨S_, .i32⟩
  | 39 => ⟨S800000, .i32⟩
  | 40 => ⟨S800000, .i1⟩
  | 41 => ⟨S_, .i32⟩
  | 42 => ⟨S800000, .i32⟩
  | 43 => ⟨S800000, .i32⟩
  | 44 => ⟨S800000, .i32⟩
  | 45 => ⟨S800000x1, .i32⟩
  | 46 => ⟨S800000, .f32⟩
  | 47 => ⟨S800000, .f32⟩
  | 48 => ⟨S50000, .f32⟩
  | 49 => ⟨S50000x1, .f32⟩
  | 50 => ⟨S50000x256, .bf16⟩
  | 51 => ⟨S256x128, .bf16⟩
  | 52 => ⟨S50000x128, .f32⟩
  | 53 => ⟨S800000x1, .f32⟩
  | 54 => ⟨S_, .i32⟩
  | 55 => ⟨S800000, .i32⟩
  | 56 => ⟨S800000, .i1⟩
  | 57 => ⟨S_, .i32⟩
  | 58 => ⟨S800000, .i32⟩
  | 59 => ⟨S800000, .i32⟩
  | 60 => ⟨S800000, .i32⟩
  | 61 => ⟨S800000x1, .i32⟩
  | 62 => ⟨S800000x128, .f32⟩
  | 63 => ⟨S800000x128, .f32⟩
  | 64 => ⟨S800000x128, .f32⟩
  | 65 => ⟨S_, .f32⟩
  | 66 => ⟨S50000x128, .f32⟩
  | 67 => ⟨S800000x1, .i32⟩
  | 68 => ⟨S50000x128, .f32⟩
  | 69 => ⟨S50000x128, .f32⟩
  | 70 => ⟨S50000x128, .f32⟩
  | 71 => ⟨S50000x128, .f32⟩
  | 72 => ⟨S1x128, .f32⟩
  | 73 => ⟨S50000x128, .f32⟩
  | 74 => ⟨S50000x128, .f32⟩
  | 75 => ⟨S_, .f32⟩
  | 76 => ⟨S50000x128, .f32⟩
  | 77 => ⟨S50000x128, .f32⟩
  | 78 => ⟨S50000x128, .bf16⟩
  | 79 => ⟨S128x128, .bf16⟩
  | 80 => ⟨S50000x128, .f32⟩
  | 81 => ⟨S800000x1, .f32⟩
  | 82 => ⟨S_, .i32⟩
  | 83 => ⟨S800000, .i32⟩
  | 84 => ⟨S800000, .i1⟩
  | 85 => ⟨S_, .i32⟩
  | 86 => ⟨S800000, .i32⟩
  | 87 => ⟨S800000, .i32⟩
  | 88 => ⟨S800000, .i32⟩
  | 89 => ⟨S800000x1, .i32⟩
  | 90 => ⟨S800000x128, .f32⟩
  | 91 => ⟨S800000x128, .f32⟩
  | 92 => ⟨S800000x128, .f32⟩
  | 93 => ⟨S_, .f32⟩
  | 94 => ⟨S50000x128, .f32⟩
  | 95 => ⟨S800000x1, .i32⟩
  | 96 => ⟨S50000x128, .f32⟩
  | 97 => ⟨S50000x128, .f32⟩
  | 98 => ⟨S50000x128, .f32⟩
  | 99 => ⟨S50000x128, .f32⟩
  | 100 => ⟨S1x128, .f32⟩
  | 101 => ⟨S50000x128, .f32⟩
  | 102 => ⟨S50000x128, .f32⟩
  | 103 => ⟨S_, .f32⟩
  | 104 => ⟨S50000x128, .f32⟩
  | 105 => ⟨S50000x128, .f32⟩
  | 106 => ⟨S50000x128, .bf16⟩
  | 107 => ⟨S128x128, .bf16⟩
  | 108 => ⟨S50000x128, .f32⟩
  | 109 => ⟨S800000x1, .f32⟩
  | 110 => ⟨S_, .i32⟩
  | 111 => ⟨S800000, .i32⟩
  | 112 => ⟨S800000, .i1⟩
  | 113 => ⟨S_, .i32⟩
  | 114 => ⟨S800000, .i32⟩
  | 115 => ⟨S800000, .i32⟩
  | 116 => ⟨S800000, .i32⟩
  | 117 => ⟨S800000x1, .i32⟩
  | 118 => ⟨S800000x128, .f32⟩
  | 119 => ⟨S800000x128, .f32⟩
  | 120 => ⟨S800000x128, .f32⟩
  | 121 => ⟨S_, .f32⟩
  | 122 => ⟨S50000x128, .f32⟩
  | 123 => ⟨S800000x1, .i32⟩
  | 124 => ⟨S50000x128, .f32⟩
  | 125 => ⟨S50000x128, .f32⟩
  | 126 => ⟨S50000x128, .f32⟩
  | 127 => ⟨S50000x128, .f32⟩
  | _ => ⟨S50000x256, .f32⟩

abbrev hbmTy0_1 (i : Nat) : BufTy := match i % 128 with
  | 0 => ⟨S1x128, .f32⟩
  | 1 => ⟨S50000x128, .f32⟩
  | 2 => ⟨S50000x128, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | .local _ .vmem, ⟨0, _⟩ => ⟨S2000x256, .bf16⟩
  | .local _ .vmem, ⟨1, _⟩ => ⟨S2000x256, .bf16⟩
  | .local _ .vmem, ⟨2, _⟩ => ⟨S256x128, .bf16⟩
  | .local _ .vmem, ⟨3, _⟩ => ⟨S2000x128, .f32⟩
  | .local _ .vmem, ⟨4, _⟩ => ⟨S2000x128, .f32⟩
  | .local _ .vmem, ⟨5, _⟩ => ⟨S2000x128, .bf16⟩
  | .local _ .vmem, ⟨6, _⟩ => ⟨S2000x128, .bf16⟩
  | .local _ .vmem, ⟨7, _⟩ => ⟨S128x128, .bf16⟩
  | .local _ .vmem, ⟨8, _⟩ => ⟨S2000x128, .f32⟩
  | .local _ .vmem, ⟨9, _⟩ => ⟨S2000x128, .f32⟩
  | .local _ .vmem, ⟨10, _⟩ => ⟨S2000x128, .bf16⟩
  | .local _ .vmem, ⟨11, _⟩ => ⟨S2000x128, .bf16⟩
  | .local _ .vmem, ⟨12, _⟩ => ⟨S128x128, .bf16⟩
  | .local _ .vmem, ⟨13, _⟩ => ⟨S2000x128, .f32⟩
  | .local _ .vmem, ⟨14, _⟩ => ⟨S2000x128, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v12 : Ref sig .tc := ⟨.hbm, 27, rfl⟩
abbrev main_c : Ref sig .tc := ⟨.hbm, 28, rfl⟩
abbrev main_v13 : Ref sig .tc := ⟨.hbm, 29, rfl⟩
abbrev main_v14 : Ref sig .tc := ⟨.hbm, 30, rfl⟩
abbrev main_c_3 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_c_4 : Ref sig .tc := ⟨.hbm, 38, rfl⟩
abbrev main_v21 : Ref sig .tc := ⟨.hbm, 39, rfl⟩
abbrev main_v22 : Ref sig .tc := ⟨.hbm, 40, rfl⟩
abbrev main_c_5 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_c_6 : Ref sig .tc := ⟨.hbm, 54, rfl⟩
abbrev main_v35 : Ref sig .tc := ⟨.hbm, 55, rfl⟩
abbrev main_v36 : Ref sig .tc := ⟨.hbm, 56, rfl⟩
abbrev main_c_7 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_8 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_call1_cst : Ref sig .tc := ⟨.hbm, 75, rfl⟩
abbrev main_call1_v0 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_c_9 : Ref sig .tc := ⟨.hbm, 82, rfl⟩
abbrev main_v58 : Ref sig .tc := ⟨.hbm, 83, rfl⟩
abbrev main_v59 : Ref sig .tc := ⟨.hbm, 84, rfl⟩
abbrev main_c_10 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_cst_11 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_call2_cst : Ref sig .tc := ⟨.hbm, 103, rfl⟩
abbrev main_call2_v0 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_c_12 : Ref sig .tc := ⟨.hbm, 110, rfl⟩
abbrev main_v81 : Ref sig .tc := ⟨.hbm, 111, rfl⟩
abbrev main_v82 : Ref sig .tc := ⟨.hbm, 112, rfl⟩
abbrev main_c_13 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_cst_14 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S800000_S800000x1_0 : S800000.BroadcastsInDim S800000x1 (![0] : Fin 1 → Fin S800000x1.rank)
  bcast_S_S800000 : S_.BroadcastsInDim S800000 (![] : Fin 0 → Fin S800000.rank)
  bcast_S50000_S50000x1_0 : S50000.BroadcastsInDim S50000x1 (![0] : Fin 1 → Fin S50000x1.rank)
  bitsLt_bf16_f32 : FTy.bits .bf16 < FTy.bits .f32
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S2000x128_S2000x128_0_0 : ∀ a, (![0, 0] : Fin 2 → Nat) a + S2000x128.size a ≤ S2000x128.size a
  h_S2000x128 : 0 < S2000x128.numel
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S2000x256_S256x128_S2000x128_1_0_0_1_n_n_wf : DotDims.WF S2000x256 S256x128 S2000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .bf16 = 32 ∨ (Rect.block (s := S50000x256) S2000x256.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .bf16 = 32 ∨ (Rect.block (s := S256x128) S256x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .bf16 = 32 ∨ (Rect.block (s := S50000x128) S2000x128.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .bf16 = 32 ∨ (Rect.block (s := S128x128) S128x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .bf16 = 32 ∨ (Rect.block (s := S50000x128) S2000x128.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .bf16 = 32 ∨ (Rect.block (s := S128x128) S128x128.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S50000x128.size a
  hwx2_2 : ∀ i : grid2.Coords, EltTy.bits .f32 = 32 ∨ (Rect.block (s := S50000x128) S2000x128.size (cc2_transform_2 i) (hinb2_2 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v31) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v32) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v54) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v55) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v56) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v77) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v78) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v79) S2000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S800000 : Shape := ⟨1, ![800000]⟩
abbrev S256x128 : Shape := ⟨2, ![256, 128]⟩
abbrev S128 : Shape := ⟨1, ![128]⟩
abbrev S128x128 : Shape := ⟨2, ![128, 128]⟩
abbrev S1x800000 : Shape := ⟨2, ![1, 800000]⟩
abbrev S50000x128 : Shape := ⟨2, ![50000, 128]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩

abbrev nBuf : Space → Nat
  | .hbm => 199
  | .vmem => 0
  | .smem => 0
  | _ => 0

abbrev hbmTy0_0 (i : Nat) : BufTy := match i % 128 with
  | 0 => ⟨S50000x256, .f32⟩
  | 1 => ⟨S2x800000, .i32⟩
  | 2 => ⟨S800000, .f32⟩
  | 3 => ⟨S256x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S1x800000, .i32⟩
  | 10 => ⟨S800000, .i32⟩
  | 11 => ⟨S1x800000, .i32⟩
  | 12 => ⟨S800000, .i32⟩
  | 13 => ⟨S50000x128, .f32⟩
  | 14 => ⟨S_, .f32⟩
  | 15 => ⟨S50000, .f32⟩
  | 16 => ⟨S800000x1, .i32⟩
  | 17 => ⟨S50000, .f32⟩
  | 18 => ⟨S_, .f32⟩
  | 19 => ⟨S50000, .f32⟩
  | 20 => ⟨S50000, .f32⟩
  | 21 => ⟨S_, .f32⟩
  | 22 => ⟨S50000, .f32⟩
  | 23 => ⟨S50000, .i1⟩
  | 24 => ⟨S50000, .f32⟩
  | 25 => ⟨S_, .f32⟩
  | 26 => ⟨S_, .f32⟩
  | 27 => ⟨S50000, .f32⟩
  | 28 => ⟨S50000, .f32⟩
  | 29 => ⟨S_, .i32⟩
  | 30 => ⟨S800000, .i32⟩
  | 31 => ⟨S800000, .i1⟩
  | 32 => ⟨S_, .i32⟩
  | 33 => ⟨S800000, .i32⟩
  | 34 => ⟨S800000, .i32⟩
  | 35 => ⟨S800000, .i32⟩
  | 36 => ⟨S800000x1, .i32⟩
  | 37 => ⟨S800000, .f32⟩
  | 38 => ⟨S800000, .f32⟩
  | 39 => ⟨S_, .i32⟩
  | 40 => ⟨S800000, .i32⟩
  | 41 => ⟨S800000, .i1⟩
  | 42 => ⟨S_, .i32⟩
  | 43 => ⟨S800000, .i32⟩
  | 44 => ⟨S800000, .i32⟩
  | 45 => ⟨S800000, .i32⟩
  | 46 => ⟨S800000x1, .i32⟩
  | 47 => ⟨S800000, .f32⟩
  | 48 => ⟨S800000, .f32⟩
  | 49 => ⟨S800000x1, .f32⟩
  | 50 => ⟨S_, .i32⟩
  | 51 => ⟨S800000, .i32⟩
  | 52 => ⟨S800000, .i1⟩
  | 53 => ⟨S_, .i32⟩
  | 54 => ⟨S800000, .i32⟩
  | 55 => ⟨S800000, .i32⟩
  | 56 => ⟨S800000, .i32⟩
  | 57 => ⟨S800000x1, .i32⟩
  | 58 => ⟨S800000x128, .f32⟩
  | 59 => ⟨S800000x128, .f32⟩
  | 60 => ⟨S800000x128, .f32⟩
  | 61 => ⟨S_, .f32⟩
  | 62 => ⟨S50000x128, .f32⟩
  | 63 => ⟨S800000x1, .i32⟩
  | 64 => ⟨S50000x128, .f32⟩
  | 65 => ⟨S50000, .f32⟩
  | 66 => ⟨S50000x1, .f32⟩
  | 67 => ⟨S50000x128, .f32⟩
  | 68 => ⟨S50000x128, .f32⟩
  | 69 => ⟨S50000x128, .f32⟩
  | 70 => ⟨S1x128, .f32⟩
  | 71 => ⟨S50000x128, .f32⟩
  | 72 => ⟨S50000x128, .f32⟩
  | 73 => ⟨S_, .f32⟩
  | 74 => ⟨S50000x128, .f32⟩
  | 75 => ⟨S50000x128, .f32⟩
  | 76 => ⟨S50000x128, .f32⟩
  | 77 => ⟨S_, .f32⟩
  | 78 => ⟨S50000, .f32⟩
  | 79 => ⟨S800000x1, .i32⟩
  | 80 => ⟨S50000, .f32⟩
  | 81 => ⟨S_, .f32⟩
  | 82 => ⟨S50000, .f32⟩
  | 83 => ⟨S50000, .f32⟩
  | 84 => ⟨S_, .f32⟩
  | 85 => ⟨S50000, .f32⟩
  | 86 => ⟨S50000, .i1⟩
  | 87 => ⟨S50000, .f32⟩
  | 88 => ⟨S_, .f32⟩
  | 89 => ⟨S_, .f32⟩
  | 90 => ⟨S50000, .f32⟩
  | 91 => ⟨S50000, .f32⟩
  | 92 => ⟨S_, .i32⟩
  | 93 => ⟨S800000, .i32⟩
  | 94 => ⟨S800000, .i1⟩
  | 95 => ⟨S_, .i32⟩
  | 96 => ⟨S800000, .i32⟩
  | 97 => ⟨S800000, .i32⟩
  | 98 => ⟨S800000, .i32⟩
  | 99 => ⟨S800000x1, .i32⟩
  | 100 => ⟨S800000, .f32⟩
  | 101 => ⟨S800000, .f32⟩
  | 102 => ⟨S_, .i32⟩
  | 103 => ⟨S800000, .i32⟩
  | 104 => ⟨S800000, .i1⟩
  | 105 => ⟨S_, .i32⟩
  | 106 => ⟨S800000, .i32⟩
  | 107 => ⟨S800000, .i32⟩
  | 108 => ⟨S800000, .i32⟩
  | 109 => ⟨S800000x1, .i32⟩
  | 110 => ⟨S800000, .f32⟩
  | 111 => ⟨S800000, .f32⟩
  | 112 => ⟨S800000x1, .f32⟩
  | 113 => ⟨S_, .i32⟩
  | 114 => ⟨S800000, .i32⟩
  | 115 => ⟨S800000, .i1⟩
  | 116 => ⟨S_, .i32⟩
  | 117 => ⟨S800000, .i32⟩
  | 118 => ⟨S800000, .i32⟩
  | 119 => ⟨S800000, .i32⟩
  | 120 => ⟨S800000x1, .i32⟩
  | 121 => ⟨S800000x128, .f32⟩
  | 122 => ⟨S800000x128, .f32⟩
  | 123 => ⟨S800000x128, .f32⟩
  | 124 => ⟨S_, .f32⟩
  | 125 => ⟨S50000x128, .f32⟩
  | 126 => ⟨S800000x1, .i32⟩
  | 127 => ⟨S50000x128, .f32⟩
  | _ => ⟨S50000x256, .f32⟩

abbrev hbmTy0_1 (i : Nat) : BufTy := match i % 128 with
  | 0 => ⟨S50000, .f32⟩
  | 1 => ⟨S50000x1, .f32⟩
  | 2 => ⟨S50000x128, .f32⟩
  | 3 => ⟨S50000x128, .f32⟩
  | 4 => ⟨S50000x128, .f32⟩
  | 5 => ⟨S1x128, .f32⟩
  | 6 => ⟨S50000x128, .f32⟩
  | 7 => ⟨S50000x128, .f32⟩
  | 8 => ⟨S_, .f32⟩
  | 9 => ⟨S50000x128, .f32⟩
  | 10 => ⟨S50000x128, .f32⟩
  | 11 => ⟨S50000x128, .f32⟩
  | 12 => ⟨S_, .f32⟩
  | 13 => ⟨S50000, .f32⟩
  | 14 => ⟨S800000x1, .i32⟩
  | 15 => ⟨S50000, .f32⟩
  | 16 => ⟨S_, .f32⟩
  | 17 => ⟨S50000, .f32⟩
  | 18 => ⟨S50000, .f32⟩
  | 19 => ⟨S_, .f32⟩
  | 20 => ⟨S50000, .f32⟩
  | 21 => ⟨S50000, .i1⟩
  | 22 => ⟨S50000, .f32⟩
  | 23 => ⟨S_, .f32⟩
  | 24 => ⟨S_, .f32⟩
  | 25 => ⟨S50000, .f32⟩
  | 26 => ⟨S50000, .f32⟩
  | 27 => ⟨S_, .i32⟩
  | 28 => ⟨S800000, .i32⟩
  | 29 => ⟨S800000, .i1⟩
  | 30 => ⟨S_, .i32⟩
  | 31 => ⟨S800000, .i32⟩
  | 32 => ⟨S800000, .i32⟩
  | 33 => ⟨S800000, .i32⟩
  | 34 => ⟨S800000x1, .i32⟩
  | 35 => ⟨S800000, .f32⟩
  | 36 => ⟨S800000, .f32⟩
  | 37 => ⟨S_, .i32⟩
  | 38 => ⟨S800000, .i32⟩
  | 39 => ⟨S800000, .i1⟩
  | 40 => ⟨S_, .i32⟩
  | 41 => ⟨S800000, .i32⟩
  | 42 => ⟨S800000, .i32⟩
  | 43 => ⟨S800000, .i32⟩
  | 44 => ⟨S800000x1, .i32⟩
  | 45 => ⟨S800000, .f32⟩
  | 46 => ⟨S800000, .f32⟩
  | 47 => ⟨S800000x1, .f32⟩
  | 48 => ⟨S_, .i32⟩
  | 49 => ⟨S800000, .i32⟩
  | 50 => ⟨S800000, .i1⟩
  | 51 => ⟨S_, .i32⟩
  | 52 => ⟨S800000, .i32⟩
  | 53 => ⟨S800000, .i32⟩
  | 54 => ⟨S800000, .i32⟩
  | 55 => ⟨S800000x1, .i32⟩
  | 56 => ⟨S800000x128, .f32⟩
  | 57 => ⟨S800000x128, .f32⟩
  | 58 => ⟨S800000x128, .f32⟩
  | 59 => ⟨S_, .f32⟩
  | 60 => ⟨S50000x128, .f32⟩
  | 61 => ⟨S800000x1, .i32⟩
  | 62 => ⟨S50000x128, .f32⟩
  | 63 => ⟨S50000, .f32⟩
  | 64 => ⟨S50000x1, .f32⟩
  | 65 => ⟨S50000x128, .f32⟩
  | 66 => ⟨S50000x128, .f32⟩
  | 67 => ⟨S50000x128, .f32⟩
  | 68 => ⟨S1x128, .f32⟩
  | 69 => ⟨S50000x128, .f32⟩
  | 70 => ⟨S50000x128, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v13 : Ref sig .tc := ⟨.hbm, 28, rfl⟩
abbrev main_c : Ref sig .tc := ⟨.hbm, 29, rfl⟩
abbrev main_v14 : Ref sig .tc := ⟨.hbm, 30, rfl⟩
abbrev main_v15 : Ref sig .tc := ⟨.hbm, 31, rfl⟩
abbrev main_c_3 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_8 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_call1_cst : Ref sig .tc := ⟨.hbm, 73, rfl⟩
abbrev main_call1_v0 : Ref sig .tc := ⟨.hbm, 74, rfl⟩
abbrev main_v51 : Ref sig .tc := ⟨.hbm, 75, rfl⟩
abbrev main_v52 : Ref sig .tc := ⟨.hbm, 76, rfl⟩
abbrev main_cst_9 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_10 : Ref sig .tc := ⟨.hbm, 81, rfl⟩
abbrev main_v56 : Ref sig .tc := ⟨.hbm, 82, rfl⟩
abbrev main_v57 : Ref sig .tc := ⟨.hbm, 83, rfl⟩
abbrev main_cst_11 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_cst_12 : Ref sig .tc := ⟨.hbm, 88, rfl⟩
abbrev main_call2_v0 : Ref sig .tc := ⟨.hbm, 89, rfl⟩
abbrev main_call2_v1 : Ref sig .tc := ⟨.hbm, 90, rfl⟩
abbrev main_v61 : Ref sig .tc := ⟨.hbm, 91, rfl⟩
abbrev main_c_13 : Ref sig .tc := ⟨.hbm, 92, rfl⟩
abbrev main_v62 : Ref sig .tc := ⟨.hbm, 93, rfl⟩
abbrev main_v63 : Ref sig .tc := ⟨.hbm, 94, rfl⟩
abbrev main_c_14 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_c_15 : Ref sig .tc := ⟨.hbm, 102, rfl⟩
abbrev main_v70 : Ref sig .tc := ⟨.hbm, 103, rfl⟩
abbrev main_v71 : Ref sig .tc := ⟨.hbm, 104, rfl⟩
abbrev main_c_16 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_c_17 : Ref sig .tc := ⟨.hbm, 113, rfl⟩
abbrev main_v79 : Ref sig .tc := ⟨.hbm, 114, rfl⟩
abbrev main_v80 : Ref sig .tc := ⟨.hbm, 115, rfl⟩
abbrev main_c_18 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_cst_19 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_call3_cst : Ref sig .tc := ⟨.hbm, 136, rfl⟩
abbrev main_call3_v0 : Ref sig .tc := ⟨.hbm, 137, rfl⟩
abbrev main_v99 : Ref sig .tc := ⟨.hbm, 138, rfl⟩
abbrev main_v100 : Ref sig .tc := ⟨.hbm, 139, rfl⟩
abbrev main_cst_20 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_cst_21 : Ref sig .tc := ⟨.hbm, 144, rfl⟩
abbrev main_v104 : Ref sig .tc := ⟨.hbm, 145, rfl⟩
abbrev main_v105 : Ref sig .tc := ⟨.hbm, 146, rfl⟩
abbrev main_cst_22 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_cst_23 : Ref sig .tc := ⟨.hbm, 151, rfl⟩
abbrev main_call4_v0 : Ref sig .tc := ⟨.hbm, 152, rfl⟩
abbrev main_call4_v1 : Ref sig .tc := ⟨.hbm, 153, rfl⟩
abbrev main_v109 : Ref sig .tc := ⟨.hbm, 154, rfl⟩
abbrev main_c_24 : Ref sig .tc := ⟨.hbm, 155, rfl⟩
abbrev main_v110 : Ref sig .tc := ⟨.hbm, 156, rfl⟩
abbrev main_v111 : Ref sig .tc := ⟨.hbm, 157, rfl⟩
abbrev main_c_25 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_c_26 : Ref sig .tc := ⟨.hbm, 165, rfl⟩
abbrev main_v118 : Ref sig .tc := ⟨.hbm, 166, rfl⟩
abbrev main_v119 : Ref sig .tc := ⟨.hbm, 167, rfl⟩
abbrev main_c_27 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_c_28 : Ref sig .tc := ⟨.hbm, 176, rfl⟩
abbrev main_v127 : Ref sig .tc := ⟨.hbm, 177, rfl⟩
abbrev main_v128 : Ref sig .tc := ⟨.hbm, 178, rfl⟩
abbrev main_c_29 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩
abbrev main_v135 : Ref sig .tc := ⟨.hbm, 186, rfl⟩
abbrev main_cst_30 : Ref sig .tc := ⟨.hbm, 187, rfl⟩
abbrev main_v136 : Ref sig .tc := ⟨.hbm, 188, rfl⟩
abbrev main_v137 : Ref sig .tc := ⟨.hbm, 189, rfl⟩
abbrev main_v138 : Ref sig .tc := ⟨.hbm, 190, rfl⟩
abbrev main_v139 : Ref sig .tc := ⟨.hbm, 191, rfl⟩
abbrev main_v140 : Ref sig .tc := ⟨.hbm, 192, rfl⟩
abbrev main_v141 : Ref sig .tc := ⟨.hbm, 193, rfl⟩
abbrev main_v142 : Ref sig .tc := ⟨.hbm, 194, rfl⟩
abbrev main_v143 : Ref sig .tc := ⟨.hbm, 195, rfl⟩
abbrev main_v144 : Ref sig .tc := ⟨.hbm, 196, rfl⟩
abbrev main_v145 : Ref sig .tc := ⟨.hbm, 197, rfl⟩
abbrev main_v146 : Ref sig .tc := ⟨.hbm, 198, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  dot_S50000x256_S256x128_S50000x128_1_0_0_1_n_n_wf : DotDims.WF S50000x256 S256x128 S50000x128 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []

variable [Facts₀]

def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KernelRun.lean ====
/-
  The idealized kernel's run with its result NAMED.  @main is thirteen segments: ten stretches of host operations
  around three matrix-product regions.  The buffer contents at each boundary are a fold from the launch memory
  (`Gen.W0` … `Gen.W13`): a host stretch acts by `StableHlo.after`, a region replaces its output array by what its
  twenty-five grid points write back.  Every weakly fair execution terminates with every unscoped buffer at the last
  fold `Gen.W13`; read at the result buffer this is the statement below, and read at an argument it is the
  argument's launch contents.
-/
import proofs.«137632_j412316860801_1_alg».proof.Proof.Gen.KernelIdeal.Frame

set_option maxRecDepth 16384

noncomputable section

namespace Cert.GraphConv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel's @main terminates, nothing faulting, with the result buffer at the
    last boundary's contents and the argument arrays as launched. -/
theorem kernel_run : θ_run defs (onTc (τ := τ) (main (F := F))) ⟨m, fun _ => 0, ρ⟩ (fun r => ∀ c : Dev nD,
      r.2.mem ((c.tc : Thread nD τ).loc main_v98) = W13 m ρ c (Proc.devRef .tc main_v98)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v98 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c)⟩)

end Cert.GraphConv

end
-- ==== Proof.Network.lean ====
/-
  The three-layer graph convolution as ONE function of the argument arrays, built from named pieces.

  A graph of 50000 nodes and 800000 weighted edges is given by an edge index (row 0 the source of each edge, row 1 its
  target) and the edge weights w.  With a self-loop of weight 1 on every node, the degree of node i is
  deg i = 1 + Σ_{e : target e = i} w e, and d i = deg(i)^(-1/2) where deg i > 0 and 0 elsewhere.  One layer maps node
  features h [50000, 128] to
      out i = Σ_{e : target e = i} (d(source e) · w e · d(target e)) · h(source e)  +  d(i)² · h i  +  b,
  and the network is  layer₃ ∘ (max 0) ∘ layer₂ ∘ (max 0) ∘ layer₁  with h = (previous features) · Wₖ before each
  layer.  Negative indices are wrapped by the node count before a row is looked up, as array indexing does.

  Everything here is stated for any float instance; no property of the arithmetic is used.
-/
import proofs.«137632_j412316860801_1_alg».proof.Proof.Gen.ReferenceIdeal

noncomputable section

namespace Cert.GraphConv

open Idealize.ShloMosaic Cert.ReferenceIdeal Cert.ReferenceIdeal.Gen

variable {F : FTy → Type} [FloatOps F]

/-- The zero vector over the nodes. -/
def zeroNodes : FVec F S50000 .f32 := broadcastInDim S50000 ![] bcast_S_S50000 (constant S_ .f32 0x00000000#32)

/-- The zero matrix of node features. -/
def zeroFeatures : FVec F S50000x128 .f32 := broadcastInDim S50000x128 ![] bcast_S_S50000x128 (constant S_ .f32 0x00000000#32)

/-- The source node of every edge: row 0 of the edge index. -/
def source (ei : IVec S2x800000 32) : IVec S800000 32 :=
  shapeCast _ (extractStridedSlice S1x800000 ![0, 0] ei slices_S2x800000_S1x800000_0_0) shapeCasts_S1x800000_S800000

/-- The target node of every edge: row 1 of the edge index. -/
def target (ei : IVec S2x800000 32) : IVec S800000 32 :=
  shapeCast _ (extractStridedSlice S1x800000 ![1, 0] ei slices_S2x800000_S1x800000_1_0) shapeCasts_S1x800000_S800000

/-- Node indices laid down a column of start indices. -/
def column (idx : IVec S800000 32) : IVec S800000x1 32 := broadcastInDim S800000x1 ![0] bcast_S800000_S800000x1_0 idx

/-- Node indices with a negative index wrapped by the node count, as a column of start indices for a row lookup. -/
def wrapped (idx : IVec S800000 32) : IVec S800000x1 32 :=
  column (select (cmpi .slt idx (broadcastInDim S800000 ![] bcast_S_S800000 (constantI S_ 32 0#32)))
    (addi idx (broadcastInDim S800000 ![] bcast_S_S800000 (constantI S_ 32 50000#32))) idx)

/-- The degree of every node: the weights of the edges into it, plus one for its self-loop. -/
def degree (tgt : IVec S800000 32) (w : FVec F S800000 .f32) : FVec F S50000 .f32 :=
  addf (Host.scatterAdd scatter_S50000_S800000x1_S800000_n_0_0_1 zeroNodes (column tgt) w)
    (broadcastInDim S50000 ![] bcast_S_S50000 (constant S_ .f32 0x3F800000#32))

/-- deg^(-1/2) where the degree is positive, zero elsewhere. -/
def invSqrtDegree (tgt : IVec S800000 32) (w : FVec F S800000 .f32) : FVec F S50000 .f32 :=
  select (cmpf .ogt (degree tgt w) zeroNodes) (Host.rsqrt (degree tgt w))
    (broadcastInDim S50000 ![] bcast_S_S50000 (id (constant S_ .f32 0x00000000#32)))

/-- The symmetric normalisation of every edge: d(source) · w · d(target). -/
def edgeNorm (src tgt : IVec S800000 32) (w : FVec F S800000 .f32) : FVec F S800000 .f32 :=
  mulf (mulf (Host.gather gather_S50000_S800000x1_S800000_n_0_n_n_0_1_1 (invSqrtDegree tgt w) (wrapped src)) w)
    (Host.gather gather_S50000_S800000x1_S800000_n_0_n_n_0_1_1 (invSqrtDegree tgt w) (wrapped tgt))

/-- The self-loop's normalisation d(i)², as a column over the nodes. -/
def selfNorm (tgt : IVec S800000 32) (w : FVec F S800000 .f32) : FVec F S50000x1 .f32 :=
  broadcastInDim S50000x1 ![0] bcast_S50000_S50000x1_0 (mulf (invSqrtDegree tgt w) (invSqrtDegree tgt w))

/-- One layer's aggregation from given normalisations: every edge carries its source's features scaled by the edge's
    normalisation into its target, every node adds its own features scaled by the self-loop's, then the bias. -/
def aggregate (src tgt : IVec S800000 32) (nrm : FVec F S800000 .f32) (slf : FVec F S50000x1 .f32)
    (h : FVec F S50000x128 .f32) (b : FVec F S128 .f32) : FVec F S50000x128 .f32 :=
  addf (addf (Host.scatterAdd scatter_S50000x128_S800000x1_S800000x128_1_0_0_1 zeroFeatures (column tgt)
      (mulf (broadcastInDim S800000x128 ![0, 1] bcast_S800000x1_S800000x128_0_1
          (broadcastInDim S800000x1 ![0] bcast_S800000_S800000x1_0 nrm))
        (Host.gather gather_S50000x128_S800000x1_S800000x128_1_0_n_n_0_1_1128 h (wrapped src))))
      (mulf (broadcastInDim S50000x128 ![0, 1] bcast_S50000x1_S50000x128_0_1 slf) h))
    (broadcastInDim S50000x128 ![0, 1] bcast_S1x128_S50000x128_0_1 (broadcastInDim S1x128 ![1] bcast_S128_S1x128_1 b))

/-- One layer on transformed features h, from the graph. -/
def layer (ei : IVec S2x800000 32) (w : FVec F S800000 .f32) (h : FVec F S50000x128 .f32) (b : FVec F S128 .f32) :
    FVec F S50000x128 .f32 :=
  aggregate (source ei) (target ei) (edgeNorm (source ei) (target ei) w) (selfNorm (target ei) w) h b

/-- The positive part of every entry. -/
def positivePart (h : FVec F S50000x128 .f32) : FVec F S50000x128 .f32 := maximumf h zeroFeatures

/-- The first layer's linear transform, all rows at once. -/
def transformIn (x : FVec F S50000x256 .f32) (W : FVec F S256x128 .f32) : FVec F S50000x128 .f32 :=
  Host.dotGeneral dot_S50000x256_S256x128_S50000x128_1_0_0_1_n_n none x W

/-- A hidden layer's linear transform, all rows at once. -/
def transformHidden (x : FVec F S50000x128 .f32) (W : FVec F S128x128 .f32) : FVec F S50000x128 .f32 :=
  Host.dotGeneral dot_S50000x128_S128x128_S50000x128_1_0_0_1_n_n none x W

/-- The network: three layers with the positive part between them. -/
def network (x : FVec F S50000x256 .f32) (ei : IVec S2x800000 32) (w : FVec F S800000 .f32)
    (W1 : FVec F S256x128 .f32) (b1 : FVec F S128 .f32) (W2 : FVec F S128x128 .f32) (b2 : FVec F S128 .f32)
    (W3 : FVec F S128x128 .f32) (b3 : FVec F S128 .f32) : FVec F S50000x128 .f32 :=
  layer ei w (transformHidden (positivePart (layer ei w (transformHidden (positivePart
    (layer ei w (transformIn x W1) b1)) W2) b2)) W3) b3

end Cert.GraphConv

end
-- ==== Proof.Stages.lean ====
/-
  The host operations of the kernel's @main, stretch by stretch, as functions of the buffer contents they start from.

  @main computes, before the first matrix product, everything that depends on the graph alone — the sources and
  targets of the edges, every edge's normalisation d(source) · w · d(target), the self-loops' d(i)² — and rounds the
  first product's operands; between two products it aggregates the product over the edges, adds the self-loop term
  and the bias, takes the positive part and rounds the next product's operands; after the last product it aggregates
  once more.  The graph quantities and the later layers' parameters are written once and only read afterwards, so
  every later stretch carries them unchanged (`Carried`).

  Each statement is the fold of a literal list of host operations read at one buffer; nothing about the arithmetic is
  used, so they hold for any float instance.
-/
import proofs.«137632_j412316860801_1_alg».proof.Proof.Gen.KernelIdeal.Frame
import proofs.«137632_j412316860801_1_alg».proof.Proof.Network
import Idealize.ShloMosaic.Lib.StableHlo.Run

set_option maxRecDepth 16384

noncomputable section

namespace Cert.GraphConv.Stages

open Idealize.ShloMosaic Idealize.ShloMosaic.TcCoe Idealize.SL.Sem Idealize.ShloMosaic.StableHlo
open Cert.KernelIdeal Cert.KernelIdeal.Gen

variable {F : FTy → Type} [FloatOps F]

/-- The host operations before the first product. -/
abbrev beforeFirst (V : Valuation τ sig (Elt F)) : Valuation τ sig (Elt F) := after hostOps0_2 (after hostOps0_1 (after hostOps0 V))
/-- The host operations between the first and the second product. -/
abbrev afterFirst (V : Valuation τ sig (Elt F)) : Valuation τ sig (Elt F) := after hostOps1_2 (after hostOps1_1 (after hostOps1 V))
/-- The host operations between the second and the third product. -/
abbrev afterSecond (V : Valuation τ sig (Elt F)) : Valuation τ sig (Elt F) := after hostOps2_2 (after hostOps2_1 (after hostOps2 V))
/-- The host operations after the third product. -/
abbrev afterThird (V : Valuation τ sig (Elt F)) : Valuation τ sig (Elt F) := after hostOps3 V

/-- What the later layers read and no later operation writes: the edges' sources and targets, the edges' and the
    self-loops' normalisations of the graph `ei`, `w`, and the parameters b1, W2, b2, W3, b3. -/
structure Carried (V : Valuation τ sig (Elt F)) (ei : IVec S2x800000 32) (w : FVec F S800000 .f32)
    (b1 : FVec F S128 .f32) (W2 : FVec F S128x128 .f32) (b2 : FVec F S128 .f32) (W3 : FVec F S128x128 .f32)
    (b3 : FVec F S128 .f32) : Prop where
  src : V (Proc.devRef .tc main_v1) = source ei
  tgt : V (Proc.devRef .tc main_v3) = target ei
  nrm : V (Proc.devRef .tc main_v28) = edgeNorm (source ei) (target ei) w
  slf : V (Proc.devRef .tc main_v30) = selfNorm (target ei) w
  bias1 : V (Proc.devRef .tc main_arg4) = b1
  weights2 : V (Proc.devRef .tc main_arg5) = W2
  bias2 : V (Proc.devRef .tc main_arg6) = b2
  weights3 : V (Proc.devRef .tc main_arg7) = W3
  bias3 : V (Proc.devRef .tc main_arg8) = b3

/-- The stretch before the first product computes the graph quantities from the edge index and the weights, and leaves
    the parameters where they are. -/
theorem carried_start (V : Valuation τ sig (Elt F)) :
    Carried (beforeFirst V) (V (Proc.devRef .tc main_arg1)) (V (Proc.devRef .tc main_arg2)) (V (Proc.devRef .tc main_arg4))
      (V (Proc.devRef .tc main_arg5)) (V (Proc.devRef .tc main_arg6)) (V (Proc.devRef .tc main_arg7)) (V (Proc.devRef .tc main_arg8)) where
  src := by after_results_simp <;> rfl
  tgt := by after_results_simp <;> rfl
  nrm := by after_results_simp <;> rfl
  slf := by after_results_simp <;> rfl
  bias1 := by after_results_simp <;> rfl
  weights2 := by after_results_simp <;> rfl
  bias2 := by after_results_simp <;> rfl
  weights3 := by after_results_simp <;> rfl
  bias3 := by after_results_simp <;> rfl

/-- The first product's left operand: the node features, rounded. -/
theorem features_in (V : Valuation τ sig (Elt F)) :
    beforeFirst V (Proc.devRef .tc main_v31) = truncf .bf16 (V (Proc.devRef .tc main_arg0) : FVec F S50000x256 .f32) bitsLt_bf16_f32 := by
  after_results_simp <;> rfl

/-- The first product's right operand: the first layer's weights, rounded. -/
theorem weights_in (V : Valuation τ sig (Elt F)) :
    beforeFirst V (Proc.devRef .tc main_v32) = truncf .bf16 (V (Proc.devRef .tc main_arg3) : FVec F S256x128 .f32) bitsLt_bf16_f32 := by
  after_results_simp <;> rfl

/-- The stretch between the first and the second product writes none of the carried buffers. -/
theorem carried_afterFirst {V : Valuation τ sig (Elt F)} {ei : IVec S2x800000 32} {w : FVec F S800000 .f32}
    {b1 : FVec F S128 .f32} {W2 : FVec F S128x128 .f32} {b2 : FVec F S128 .f32} {W3 : FVec F S128x128 .f32}
    {b3 : FVec F S128 .f32} (h : Carried V ei w b1 W2 b2 W3 b3) : Carried (afterFirst V) ei w b1 W2 b2 W3 b3 where
  src := (show afterFirst V (Proc.devRef .tc main_v1) = V (Proc.devRef .tc main_v1) by after_results_simp).trans h.src
  tgt := (show afterFirst V (Proc.devRef .tc main_v3) = V (Proc.devRef .tc main_v3) by after_results_simp).trans h.tgt
  nrm := (show afterFirst V (Proc.devRef .tc main_v28) = V (Proc.devRef .tc main_v28) by after_results_simp).trans h.nrm
  slf := (show afterFirst V (Proc.devRef .tc main_v30) = V (Proc.devRef .tc main_v30) by after_results_simp).trans h.slf
  bias1 := (show afterFirst V (Proc.devRef .tc main_arg4) = V (Proc.devRef .tc main_arg4) by after_results_simp).trans h.bias1
  weights2 := (show afterFirst V (Proc.devRef .tc main_arg5) = V (Proc.devRef .tc main_arg5) by after_results_simp).trans h.weights2
  bias2 := (show afterFirst V (Proc.devRef .tc main_arg6) = V (Proc.devRef .tc main_arg6) by after_results_simp).trans h.bias2
  weights3 := (show afterFirst V (Proc.devRef .tc main_arg7) = V (Proc.devRef .tc main_arg7) by after_results_simp).trans h.weights3
  bias3 := (show afterFirst V (Proc.devRef .tc main_arg8) = V (Proc.devRef .tc main_arg8) by after_results_simp).trans h.bias3

/-- The stretch between the second and the third product writes none of the carried buffers. -/
theorem carried_afterSecond {V : Valuation τ sig (Elt F)} {ei : IVec S2x800000 32} {w : FVec F S800000 .f32}
    {b1 : FVec F S128 .f32} {W2 : FVec F S128x128 .f32} {b2 : FVec F S128 .f32} {W3 : FVec F S128x128 .f32}
    {b3 : FVec F S128 .f32} (h : Carried V ei w b1 W2 b2 W3 b3) : Carried (afterSecond V) ei w b1 W2 b2 W3 b3 where
  src := (show afterSecond V (Proc.devRef .tc main_v1) = V (Proc.devRef .tc main_v1) by after_results_simp).trans h.src
  tgt := (show afterSecond V (Proc.devRef .tc main_v3) = V (Proc.devRef .tc main_v3) by after_results_simp).trans h.tgt
  nrm := (show afterSecond V (Proc.devRef .tc main_v28) = V (Proc.devRef .tc main_v28) by after_results_simp).trans h.nrm
  slf := (show afterSecond V (Proc.devRef .tc main_v30) = V (Proc.devRef .tc main_v30) by after_results_simp).trans h.slf
  bias1 := (show afterSecond V (Proc.devRef .tc main_arg4) = V (Proc.devRef .tc main_arg4) by after_results_simp).trans h.bias1
  weights2 := (show afterSecond V (Proc.devRef .tc main_arg5) = V (Proc.devRef .tc main_arg5) by after_results_simp).trans h.weights2
  bias2 := (show afterSecond V (Proc.devRef .tc main_arg6) = V (Proc.devRef .tc main_arg6) by after_results_simp).trans h.bias2
  weights3 := (show afterSecond V (Proc.devRef .tc main_arg7) = V (Proc.devRef .tc main_arg7) by after_results_simp).trans h.weights3
  bias3 := (show afterSecond V (Proc.devRef .tc main_arg8) = V (Proc.devRef .tc main_arg8) by after_results_simp).trans h.bias3

/-- Between the first and the second product: the first layer's aggregation of the product (found in the first
    region's output array) with the first bias, its positive part, rounded — the second product's left operand. -/
theorem features_afterFirst (V : Valuation τ sig (Elt F)) :
    afterFirst V (Proc.devRef .tc main_v54)
      = truncf .bf16 (positivePart (aggregate (V (Proc.devRef .tc main_v1)) (V (Proc.devRef .tc main_v3)) (V (Proc.devRef .tc main_v28))
          (V (Proc.devRef .tc main_v30)) (V (Proc.devRef .tc main_v33)) (V (Proc.devRef .tc main_arg4)))) bitsLt_bf16_f32 := by
  after_results_simp <;> rfl

/-- The second product's right operand: the second layer's weights, rounded. -/
theorem weights_afterFirst (V : Valuation τ sig (Elt F)) :
    afterFirst V (Proc.devRef .tc main_v55) = truncf .bf16 (V (Proc.devRef .tc main_arg5) : FVec F S128x128 .f32) bitsLt_bf16_f32 := by
  after_results_simp <;> rfl

/-- Between the second and the third product: the second layer's aggregation of the product (found in the second
    region's output array) with the second bias, its positive part, rounded — the third product's left operand. -/
theorem features_afterSecond (V : Valuation τ sig (Elt F)) :
    afterSecond V (Proc.devRef .tc main_v77)
      = truncf .bf16 (positivePart (aggregate (V (Proc.devRef .tc main_v1)) (V (Proc.devRef .tc main_v3)) (V (Proc.devRef .tc main_v28))
          (V (Proc.devRef .tc main_v30)) (V (Proc.devRef .tc main_v56)) (V (Proc.devRef .tc main_arg6)))) bitsLt_bf16_f32 := by
  after_results_simp <;> rfl

/-- The third product's right operand: the third layer's weights, rounded. -/
theorem weights_afterSecond (V : Valuation τ sig (Elt F)) :
    afterSecond V (Proc.devRef .tc main_v78) = truncf .bf16 (V (Proc.devRef .tc main_arg7) : FVec F S128x128 .f32) bitsLt_bf16_f32 := by
  after_results_simp <;> rfl

/-- After the third product: the third layer's aggregation of the product (found in the third region's output array)
    with the third bias — the result. -/
theorem result_afterThird (V : Valuation τ sig (Elt F)) :
    afterThird V (Proc.devRef .tc main_v98)
      = aggregate (V (Proc.devRef .tc main_v1)) (V (Proc.devRef .tc main_v3)) (V (Proc.devRef .tc main_v28))
          (V (Proc.devRef .tc main_v30)) (V (Proc.devRef .tc main_v79)) (V (Proc.devRef .tc main_arg8)) := by
  after_results_simp <;> rfl

end Cert.GraphConv.Stages

end
-- ==== Proof.LibPlainDotGeneral.lean ====
/-
  A plain two-dimensional matrix product computed on the host, read at a row and a column.

  For dimension numbers that contract the left operand's columns with the right operand's rows, with no batch axis,
  entry `(r, c)` of the `dot_general` of an `[M, K]` matrix and a `[K, N]` matrix is, on the extended reals, the sum
  over `k` of `lhs (r, k) * rhs (k, c)`, whatever the precision and schedule keys: the contraction index, a rank-one
  index, is re-indexed by its one coordinate. Stated for any extents and float formats, with the dimension numbers
  given by their six lists, so that any printed record with these lists unifies. The counterpart, for the host's
  product, of the same reading of a kernel's matrix unit into a zero accumulator.
-/
import Idealize.ShloMosaic.PureOps.Ideal.Laws
import Idealize.ShloMosaic.Lib.ValueIdx

namespace Cert.Lib.PlainDotGeneral

open Idealize.ShloMosaic Idealize.ShloMosaic.ValueIdx

set_option backward.isDefEq.respectTransparency.types false in
/-- The host product of `[M, K]` by `[K, N]`, at `(r, c)`: `∑ k, lhs (r, k) * rhs (k, c)`. -/
theorem dotGeneral_apply {M K N : ℕ} {φ₁ φ₂ : FTy}
    (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (sched : HostSchedule)
    (lhs : FVec Ideal ⟨2, ![M, K]⟩ φ₁) (rhs : FVec Ideal ⟨2, ![K, N]⟩ φ₂)
    (r : Fin M) (c : Fin N) :
    FloatOps.dotGeneral d prec sched lhs rhs (ix2 r c) = ∑ k : Fin K, lhs (ix2 r k) * rhs (ix2 k c) := by
  obtain ⟨lc, rc, ln, rn, lb, rb, wf⟩ := d
  dsimp only at hlc hrc hln hrn hlb hrb
  subst hlc hrc hln hrn hlb hrb
  rw [Ideal.dotGeneral_apply]
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : (⟨[1], [0], [0], [1], [], [], wf⟩ : DotDims ⟨2, ![M, K]⟩ ⟨2, ![K, N]⟩ ⟨2, ![M, N]⟩).lhsIdx (ix2 r c)
      ((contrEquiv1 (⟨[1], [0], [0], [1], [], [], wf⟩ : DotDims ⟨2, ![M, K]⟩ ⟨2, ![K, N]⟩ ⟨2, ![M, N]⟩) K rfl rfl).symm k) = ix2 r k :=
    funext fun a => Fin.ext (by
      match a with
      | ⟨0, h0⟩ =>
        unfold DotDims.lhsIdx
        rw [dif_neg (show ¬ (⟨0, h0⟩ : Fin 2) ∈ ([] : List (Fin 2)) from List.not_mem_nil),
          dif_pos (show (⟨0, h0⟩ : Fin 2) ∈ [(0 : Fin 2)] from List.mem_singleton.mpr rfl)]
        rfl
      | ⟨1, _⟩ => exact (DotDims.lhsIdx_val_of_single _ rfl _ _).trans hk)
  have er : (⟨[1], [0], [0], [1], [], [], wf⟩ : DotDims ⟨2, ![M, K]⟩ ⟨2, ![K, N]⟩ ⟨2, ![M, N]⟩).rhsIdx (ix2 r c)
      ((contrEquiv1 (⟨[1], [0], [0], [1], [], [], wf⟩ : DotDims ⟨2, ![M, K]⟩ ⟨2, ![K, N]⟩ ⟨2, ![M, N]⟩) K rfl rfl).symm k) = ix2 k c :=
    funext fun a => Fin.ext (by
      match a with
      | ⟨0, _⟩ => exact (DotDims.rhsIdx_val_of_single _ rfl _ _).trans hk
      | ⟨1, h1⟩ =>
        unfold DotDims.rhsIdx
        rw [dif_neg (show ¬ (⟨1, h1⟩ : Fin 2) ∈ ([] : List (Fin 2)) from List.not_mem_nil),
          dif_pos (show (⟨1, h1⟩ : Fin 2) ∈ [(1 : Fin 2)] from List.mem_singleton.mpr rfl)]
        rfl)
  rw [el, er]

end Cert.Lib.PlainDotGeneral
-- ==== Proof.Products.lean ====
/-
  The layers' linear transforms as matrix products on the extended reals.

  The product of an [M, K] matrix a and a [K, N] matrix b has entry (r, c) equal to Σ_k a(r, k) · b(k, c).  At the
  exact instance a host matrix product of all 50000 rows is that product of its operands, entry by entry, whatever
  the precision key.  So each layer's transform in the network is a `product`.
-/
import proofs.«137632_j412316860801_1_alg».proof.Proof.Network
import proofs.«137632_j412316860801_1_alg».proof.Proof.LibPlainDotGeneral

noncomputable section

namespace Cert.GraphConv

open Idealize.ShloMosaic Idealize.ShloMosaic.ValueIdx Cert.ReferenceIdeal Cert.ReferenceIdeal.Gen

/-- The matrix product on the extended reals, entry by entry. -/
def product {M K N : ℕ} (a : (⟨2, ![M, K]⟩ : Shape).Idx → EReal) (b : (⟨2, ![K, N]⟩ : Shape).Idx → EReal) :
    (⟨2, ![M, N]⟩ : Shape).Idx → EReal :=
  fun i => ∑ k : Fin K, a (ix2 (i 0) k) * b (ix2 k (i 1))

/-- The first layer's transform is the product of the features [50000, 256] and the weights [256, 128]. -/
theorem transformIn_eq (x : FVec Ideal S50000x256 .f32) (W : FVec Ideal S256x128 .f32) :
    transformIn (F := Ideal) x W = product x W := by
  funext i
  obtain ⟨r, q, rfl⟩ : ∃ (r : Fin 50000) (q : Fin 128), i = ix2 r q := ⟨i 0, i 1, eq_ix2 i⟩
  unfold transformIn product
  simp only [Host.dotGeneral]
  exact Cert.Lib.PlainDotGeneral.dotGeneral_apply dot_S50000x256_S256x128_S50000x128_1_0_0_1_n_n rfl rfl rfl rfl rfl rfl _ _ x W r q

/-- A hidden layer's transform is the product of the features [50000, 128] and the weights [128, 128]. -/
theorem transformHidden_eq (x : FVec Ideal S50000x128 .f32) (W : FVec Ideal S128x128 .f32) :
    transformHidden (F := Ideal) x W = product x W := by
  funext i
  obtain ⟨r, q, rfl⟩ : ∃ (r : Fin 50000) (q : Fin 128), i = ix2 r q := ⟨i 0, i 1, eq_ix2 i⟩
  unfold transformHidden product
  simp only [Host.dotGeneral]
  exact Cert.Lib.PlainDotGeneral.dotGeneral_apply dot_S50000x128_S128x128_S50000x128_1_0_0_1_n_n rfl rfl rfl rfl rfl rfl _ _ x W r q

end Cert.GraphConv

end
-- ==== Proof.LibPlainMatmul.lean ====
/-
  A plain two-dimensional matrix product into a zero accumulator, read at a row and a column.

  For dimension numbers that contract the left operand's columns with the right operand's rows, with no batch axis,
  entry `(r, c)` of the product of an `[M, K]` matrix and a `[K, N]` matrix accumulated into zero is the sum over
  `k` of `lhs (r, k) * rhs (k, c)` on the extended reals: the accumulator contributes `0`, and the contraction
  index, a rank-one index, is re-indexed by its one coordinate. Stated for any extents and float formats, with the
  dimension numbers given by their six lists, so that any printed record with these lists unifies.
-/
import Idealize.ShloMosaic.PureOps.Ideal.Laws
import Idealize.ShloMosaic.Lib.ValueIdx

namespace Cert.Lib.PlainMatmul

open Idealize.ShloMosaic Idealize.ShloMosaic.ValueIdx

set_option backward.isDefEq.respectTransparency.types false in
/-- The product of `[M, K]` by `[K, N]` into the zero splat, at `(r, c)`: `∑ k, lhs (r, k) * rhs (k, c)`. -/
theorem matmul_zero_apply {M K N : ℕ} {φ₁ φ₂ : FTy}
    (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (lhs : FVec Ideal ⟨2, ![M, K]⟩ φ₁) (rhs : FVec Ideal ⟨2, ![K, N]⟩ φ₂)
    (r : Fin M) (c : Fin N) :
    FloatOps.matmul d prec lhs rhs (constant ⟨2, ![M, N]⟩ .f32 0x00000000#32) (ix2 r c)
      = ∑ k : Fin K, lhs (ix2 r k) * rhs (ix2 k c) := by
  obtain ⟨lc, rc, ln, rn, lb, rb, wf⟩ := d
  dsimp only at hlc hrc hln hrn hlb hrb
  subst hlc hrc hln hrn hlb hrb
  rw [Ideal.matmul_constant_zero_apply]
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : (⟨[1], [0], [0], [1], [], [], wf⟩ : DotDims ⟨2, ![M, K]⟩ ⟨2, ![K, N]⟩ ⟨2, ![M, N]⟩).lhsIdx (ix2 r c)
      ((contrEquiv1 (⟨[1], [0], [0], [1], [], [], wf⟩ : DotDims ⟨2, ![M, K]⟩ ⟨2, ![K, N]⟩ ⟨2, ![M, N]⟩) K rfl rfl).symm k) = ix2 r k :=
    funext fun a => Fin.ext (by
      match a with
      | ⟨0, h0⟩ =>
        unfold DotDims.lhsIdx
        rw [dif_neg (show ¬ (⟨0, h0⟩ : Fin 2) ∈ ([] : List (Fin 2)) from List.not_mem_nil),
          dif_pos (show (⟨0, h0⟩ : Fin 2) ∈ [(0 : Fin 2)] from List.mem_singleton.mpr rfl)]
        rfl
      | ⟨1, _⟩ => exact (DotDims.lhsIdx_val_of_single _ rfl _ _).trans hk)
  have er : (⟨[1], [0], [0], [1], [], [], wf⟩ : DotDims ⟨2, ![M, K]⟩ ⟨2, ![K, N]⟩ ⟨2, ![M, N]⟩).rhsIdx (ix2 r c)
      ((contrEquiv1 (⟨[1], [0], [0], [1], [], [], wf⟩ : DotDims ⟨2, ![M, K]⟩ ⟨2, ![K, N]⟩ ⟨2, ![M, N]⟩) K rfl rfl).symm k) = ix2 k c :=
    funext fun a => Fin.ext (by
      match a with
      | ⟨0, _⟩ => exact (DotDims.rhsIdx_val_of_single _ rfl _ _).trans hk
      | ⟨1, h1⟩ =>
        unfold DotDims.rhsIdx
        rw [dif_neg (show ¬ (⟨1, h1⟩ : Fin 2) ∈ ([] : List (Fin 2)) from List.not_mem_nil),
          dif_pos (show (⟨1, h1⟩ : Fin 2) ∈ [(1 : Fin 2)] from List.mem_singleton.mpr rfl)]
        rfl)
  rw [el, er]

end Cert.Lib.PlainMatmul
-- ==== Proof.Region0.lean ====
/-
  Region 0: what the output array of the first matrix-product kernel holds when its grid has run.

  The grid has 25 points.  Point t reads rows 2000·t … 2000·t + 1999 of the left operand A [50000, 256] (a block
  [2000, 256]) and the whole right operand B [256, 128], multiplies them into a zero accumulator and writes the block
  [2000, 128] back as rows 2000·t … 2000·t + 1999 of the output.  Entry (r, q) of that block is
  Σ_k A(2000·t + r, k) · B(k, q), which is entry (2000·t + r, q) of the product A · B.  Row i of the output lies in
  the block of point i / 2000, so the 25 row blocks cover the output, and the output array ends at A · B — for
  whatever contents A and B the region finds in its operand arrays.
-/
import proofs.«137632_j412316860801_1_alg».proof.Proof.Gen.KernelIdeal.Frame
import proofs.«137632_j412316860801_1_alg».proof.Proof.Products
import proofs.«137632_j412316860801_1_alg».proof.Proof.LibPlainMatmul
import Idealize.ShloMosaic.Lib.Pipeline.Value
import Idealize.ShloMosaic.Lib.ValueIdx

set_option maxRecDepth 16384

noncomputable section

namespace Cert.GraphConv.Region0

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem offsets_zero : (![0, 0] : Fin 2 → Nat) = fun _ => 0 := funext fun a => by fin_cases a <;> rfl

/-- The block computed at a point, entry by entry: a row of the left block against a column of the right operand. -/
theorem block_apply (a : Vec Ideal S2000x256 .bf16) (b : Vec Ideal S256x128 .bf16) (r : Fin 2000) (q : Fin 128) :
    k0_pay1 a b (ix2 r q) = ∑ k : Fin 256, a (ix2 r k) * b (ix2 k q) := by
  unfold k0_pay1
  simp only [shapeCast_self]
  exact Cert.Lib.PlainMatmul.matmul_zero_apply dot_S2000x256_S256x128_S2000x128_1_0_0_1_n_n rfl rfl rfl rfl rfl rfl none a b r q

/-- Where the windows' blocks sit at point t: the left operand's and the output's at row block t, column block 0;
    the right operand's at the origin. -/
theorem block_positions : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the product of the operands as the region finds them. -/
theorem written_back (c : Dev nD) (t : Fin cfg0.N) :
    (dat0 (F := Ideal) V c).flushed 2 t
      = ((cfg0.win 2).blk t).view.read (Elt Ideal) (product (M := 50000) (K := 256) (N := 128) (V c main_v31) (V c main_v32)) := by
  show (cfg0.win 2).cut (grid0.coords t) ((dat0 V c).after 2 t) = _
  rw [after0_2]
  unfold out0_2
  rw [View.canon_unit_zero offsets_zero]
  simp only [View.ld_unit_zero (S := S2000x256) offsets_zero, View.ld_unit_zero (S := S256x128) offsets_zero]
  obtain ⟨e0, e1, e2, e3, e4, e5⟩ := block_positions t
  funext j
  obtain ⟨r, q, rfl⟩ : ∃ (r : Fin 2000) (q : Fin 128), j = ix2 r q := ⟨j 0, j 1, eq_ix2 j⟩
  show k0_pay1 (iblk0 V c 0 t) (iblk0 V c 1 t) (ix2 r q)
      = product (M := 50000) (K := 256) (N := 128) (V c main_v31) (V c main_v32) (((cfg0.win 2).blk t).view.emb (ix2 r q))
  refine (block_apply (iblk0 V c 0 t) (iblk0 V c 1 t) r q).trans ?_
  unfold product
  refine Finset.sum_congr rfl fun k _ => ?_
  -- the left block's entry (r, k) is the left operand at the output row and column k
  have hl : iblk0 V c 0 t (ix2 r k) = V c main_v31 (ix2 ((((cfg0.win 2).blk t).view.emb (ix2 r q)) 0) k) := by
    show V c main_v31 (((cfg0.win 0).blk t).view.emb (ix2 r k)) = _
    refine congrArg (V c main_v31) ?_
    funext a; apply Fin.ext
    match a with
    | ⟨0, _⟩ => show win0_0.index t (0 : Fin 2) * 2000 + 1 * r.val = win0_2.index t (0 : Fin 2) * 2000 + 1 * r.val; omega
    | ⟨1, _⟩ => show win0_0.index t (1 : Fin 2) * 256 + 1 * k.val = k.val; omega
  -- the right block's entry (k, q) is the right operand at row k and the output column
  have hr : iblk0 V c 1 t (ix2 k q) = V c main_v32 (ix2 k ((((cfg0.win 2).blk t).view.emb (ix2 r q)) 1)) := by
    show V c main_v32 (((cfg0.win 1).blk t).view.emb (ix2 k q)) = _
    refine congrArg (V c main_v32) ?_
    funext a; apply Fin.ext
    match a with
    | ⟨0, _⟩ => show win0_1.index t (0 : Fin 2) * 256 + 1 * k.val = k.val; omega
    | ⟨1, _⟩ => show win0_1.index t (1 : Fin 2) * 128 + 1 * q.val = win0_2.index t (1 : Fin 2) * 128 + 1 * q.val; omega
  rw [hl, hr]

/-- An index of the output is in point t's block iff each coordinate is in the block's range on its axis. -/
theorem mem_block (t : Fin cfg0.N) (i : S50000x128.Idx) :
    i ∈ ((cfg0.win 2).blk t).view.set ↔ ∀ a : Fin 2, win0_2.index t a * S2000x128.size a ≤ (i a).val
      ∧ (i a).val < win0_2.index t a * S2000x128.size a + S2000x128.size a := by
  show i ∈ ((View.whole main_v33).slice (win0_2.rect t)).set ↔ _
  rw [View.set_slice_whole, Rect.mem_set_unit]
  exact Iff.rfl

/-- Row i of the output is written by point i / 2000: the row blocks cover the array. -/
theorem covered (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 25 := N_0
  have ht : (i 0).val / 2000 < cfg0.N := by omega
  obtain ⟨e0, e1, e2, e3, e4, e5⟩ := block_positions ⟨(i 0).val / 2000, ht⟩
  refine ⟨⟨(i 0).val / 2000, ht⟩, flush0_2 _, ?_⟩
  rw [mem_block]
  intro a
  match a with
  | ⟨0, _⟩ =>
    show win0_2.index ⟨(i 0).val / 2000, ht⟩ (0 : Fin 2) * 2000 ≤ (i 0).val
      ∧ (i 0).val < win0_2.index ⟨(i 0).val / 2000, ht⟩ (0 : Fin 2) * 2000 + 2000
    have e4' : win0_2.index ⟨(i 0).val / 2000, ht⟩ (0 : Fin 2) = (i 0).val / 2000 := e4
    omega
  | ⟨1, _⟩ =>
    show win0_2.index ⟨(i 0).val / 2000, ht⟩ (1 : Fin 2) * 128 ≤ (i 1).val
      ∧ (i 1).val < win0_2.index ⟨(i 0).val / 2000, ht⟩ (1 : Fin 2) * 128 + 128
    omega

/-- The output array after the region: the product of the operand arrays as the region found them. -/
theorem array (c : Dev nD) :
    (dat0 (F := Ideal) V c).arrAt 2 cfg0.N
      = product (M := 50000) (K := 256) (N := 128) (V c main_v31) (V c main_v32) :=
  (dat0 V c).arrAt_eq_of_cover 2 _ (fun t _ => written_back V c t) (covered)

end Cert.GraphConv.Region0

end
-- ==== Proof.Region1.lean ====
/-
  Region 1: what the output array of the second matrix-product kernel holds when its grid has run.

  The grid has 25 points.  Point t reads rows 2000·t … 2000·t + 1999 of the left operand A [50000, 128] (a block
  [2000, 128]) and the whole right operand B [128, 128], multiplies them into a zero accumulator and writes the block
  [2000, 128] back as rows 2000·t … 2000·t + 1999 of the output.  Entry (r, q) of that block is
  Σ_k A(2000·t + r, k) · B(k, q), which is entry (2000·t + r, q) of the product A · B.  Row i of the output lies in
  the block of point i / 2000, so the 25 row blocks cover the output, and the output array ends at A · B — for
  whatever contents A and B the region finds in its operand arrays.
-/
import proofs.«137632_j412316860801_1_alg».proof.Proof.Gen.KernelIdeal.Frame
import proofs.«137632_j412316860801_1_alg».proof.Proof.Products
import proofs.«137632_j412316860801_1_alg».proof.Proof.LibPlainMatmul
import Idealize.ShloMosaic.Lib.Pipeline.Value
import Idealize.ShloMosaic.Lib.ValueIdx

set_option maxRecDepth 16384

noncomputable section

namespace Cert.GraphConv.Region1

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem offsets_zero : (![0, 0] : Fin 2 → Nat) = fun _ => 0 := funext fun a => by fin_cases a <;> rfl

/-- The block computed at a point, entry by entry: a row of the left block against a column of the right operand. -/
theorem block_apply (a : Vec Ideal S2000x128 .bf16) (b : Vec Ideal S128x128 .bf16) (r : Fin 2000) (q : Fin 128) :
    k1_pay1 a b (ix2 r q) = ∑ k : Fin 128, a (ix2 r k) * b (ix2 k q) := by
  unfold k1_pay1
  simp only [shapeCast_self]
  exact Cert.Lib.PlainMatmul.matmul_zero_apply dot_S2000x128_S128x128_S2000x128_1_0_0_1_n_n rfl rfl rfl rfl rfl rfl none a b r q

/-- Where the windows' blocks sit at point t: the left operand's and the output's at row block t, column block 0;
    the right operand's at the origin. -/
theorem block_positions : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is block t of the product of the operands as the region finds them. -/
theorem written_back (c : Dev nD) (t : Fin cfg1.N) :
    (dat1 (F := Ideal) V c).flushed 2 t
      = ((cfg1.win 2).blk t).view.read (Elt Ideal) (product (M := 50000) (K := 128) (N := 128) (V c main_v54) (V c main_v55)) := by
  show (cfg1.win 2).cut (grid1.coords t) ((dat1 V c).after 2 t) = _
  rw [after1_2]
  unfold out1_2
  rw [View.canon_unit_zero offsets_zero]
  simp only [View.ld_unit_zero (S := S2000x128) offsets_zero, View.ld_unit_zero (S := S128x128) offsets_zero]
  obtain ⟨e0, e1, e2, e3, e4, e5⟩ := block_positions t
  funext j
  obtain ⟨r, q, rfl⟩ : ∃ (r : Fin 2000) (q : Fin 128), j = ix2 r q := ⟨j 0, j 1, eq_ix2 j⟩
  show k1_pay1 (iblk1 V c 0 t) (iblk1 V c 1 t) (ix2 r q)
      = product (M := 50000) (K := 128) (N := 128) (V c main_v54) (V c main_v55) (((cfg1.win 2).blk t).view.emb (ix2 r q))
  refine (block_apply (iblk1 V c 0 t) (iblk1 V c 1 t) r q).trans ?_
  unfold product
  refine Finset.sum_congr rfl fun k _ => ?_
  -- the left block's entry (r, k) is the left operand at the output row and column k
  have hl : iblk1 V c 0 t (ix2 r k) = V c main_v54 (ix2 ((((cfg1.win 2).blk t).view.emb (ix2 r q)) 0) k) := by
    show V c main_v54 (((cfg1.win 0).blk t).view.emb (ix2 r k)) = _
    refine congrArg (V c main_v54) ?_
    funext a; apply Fin.ext
    match a with
    | ⟨0, _⟩ => show win1_0.index t (0 : Fin 2) * 2000 + 1 * r.val = win1_2.index t (0 : Fin 2) * 2000 + 1 * r.val; omega
    | ⟨1, _⟩ => show win1_0.index t (1 : Fin 2) * 128 + 1 * k.val = k.val; omega
  -- the right block's entry (k, q) is the right operand at row k and the output column
  have hr : iblk1 V c 1 t (ix2 k q) = V c main_v55 (ix2 k ((((cfg1.win 2).blk t).view.emb (ix2 r q)) 1)) := by
    show V c main_v55 (((cfg1.win 1).blk t).view.emb (ix2 k q)) = _
    refine congrArg (V c main_v55) ?_
    funext a; apply Fin.ext
    match a with
    | ⟨0, _⟩ => show win1_1.index t (0 : Fin 2) * 128 + 1 * k.val = k.val; omega
    | ⟨1, _⟩ => show win1_1.index t (1 : Fin 2) * 128 + 1 * q.val = win1_2.index t (1 : Fin 2) * 128 + 1 * q.val; omega
  rw [hl, hr]

/-- An index of the output is in point t's block iff each coordinate is in the block's range on its axis. -/
theorem mem_block (t : Fin cfg1.N) (i : S50000x128.Idx) :
    i ∈ ((cfg1.win 2).blk t).view.set ↔ ∀ a : Fin 2, win1_2.index t a * S2000x128.size a ≤ (i a).val
      ∧ (i a).val < win1_2.index t a * S2000x128.size a + S2000x128.size a := by
  show i ∈ ((View.whole main_v56).slice (win1_2.rect t)).set ↔ _
  rw [View.set_slice_whole, Rect.mem_set_unit]
  exact Iff.rfl

/-- Row i of the output is written by point i / 2000: the row blocks cover the array. -/
theorem covered (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  have hN : cfg1.N = 25 := N_1
  have ht : (i 0).val / 2000 < cfg1.N := by omega
  obtain ⟨e0, e1, e2, e3, e4, e5⟩ := block_positions ⟨(i 0).val / 2000, ht⟩
  refine ⟨⟨(i 0).val / 2000, ht⟩, flush1_2 _, ?_⟩
  rw [mem_block]
  intro a
  match a with
  | ⟨0, _⟩ =>
    show win1_2.index ⟨(i 0).val / 2000, ht⟩ (0 : Fin 2) * 2000 ≤ (i 0).val
      ∧ (i 0).val < win1_2.index ⟨(i 0).val / 2000, ht⟩ (0 : Fin 2) * 2000 + 2000
    have e4' : win1_2.index ⟨(i 0).val / 2000, ht⟩ (0 : Fin 2) = (i 0).val / 2000 := e4
    omega
  | ⟨1, _⟩ =>
    show win1_2.index ⟨(i 0).val / 2000, ht⟩ (1 : Fin 2) * 128 ≤ (i 1).val
      ∧ (i 1).val < win1_2.index ⟨(i 0).val / 2000, ht⟩ (1 : Fin 2) * 128 + 128
    omega

/-- The output array after the region: the product of the operand arrays as the region found them. -/
theorem array (c : Dev nD) :
    (dat1 (F := Ideal) V c).arrAt 2 cfg1.N
      = product (M := 50000) (K := 128) (N := 128) (V c main_v54) (V c main_v55) :=
  (dat1 V c).arrAt_eq_of_cover 2 _ (fun t _ => written_back V c t) (covered)

end Cert.GraphConv.Region1

end
-- ==== Proof.Region2.lean ====
/-
  Region 2: what the output array of the third matrix-product kernel holds when its grid has run.

  The grid has 25 points.  Point t reads rows 2000·t … 2000·t + 1999 of the left operand A [50000, 128] (a block
  [2000, 128]) and the whole right operand B [128, 128], multiplies them into a zero accumulator and writes the block
  [2000, 128] back as rows 2000·t … 2000·t + 1999 of the output.  Entry (r, q) of that block is
  Σ_k A(2000·t + r, k) · B(k, q), which is entry (2000·t + r, q) of the product A · B.  Row i of the output lies in
  the block of point i / 2000, so the 25 row blocks cover the output, and the output array ends at A · B — for
  whatever contents A and B the region finds in its operand arrays.
-/
import proofs.«137632_j412316860801_1_alg».proof.Proof.Gen.KernelIdeal.Frame
import proofs.«137632_j412316860801_1_alg».proof.Proof.Products
import proofs.«137632_j412316860801_1_alg».proof.Proof.LibPlainMatmul
import Idealize.ShloMosaic.Lib.Pipeline.Value
import Idealize.ShloMosaic.Lib.ValueIdx

set_option maxRecDepth 16384

noncomputable section

namespace Cert.GraphConv.Region2

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem offsets_zero : (![0, 0] : Fin 2 → Nat) = fun _ => 0 := funext fun a => by fin_cases a <;> rfl

/-- The block computed at a point, entry by entry: a row of the left block against a column of the right operand. -/
theorem block_apply (a : Vec Ideal S2000x128 .bf16) (b : Vec Ideal S128x128 .bf16) (r : Fin 2000) (q : Fin 128) :
    k2_pay1 a b (ix2 r q) = ∑ k : Fin 128, a (ix2 r k) * b (ix2 k q) := by
  unfold k2_pay1
  simp only [shapeCast_self]
  exact Cert.Lib.PlainMatmul.matmul_zero_apply dot_S2000x128_S128x128_S2000x128_1_0_0_1_n_n rfl rfl rfl rfl rfl rfl none a b r q

/-- Where the windows' blocks sit at point t: the left operand's and the output's at row block t, column block 0;
    the right operand's at the origin. -/
theorem block_positions : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of the product of the operands as the region finds them. -/
theorem written_back (c : Dev nD) (t : Fin cfg2.N) :
    (dat2 (F := Ideal) V c).flushed 2 t
      = ((cfg2.win 2).blk t).view.read (Elt Ideal) (product (M := 50000) (K := 128) (N := 128) (V c main_v77) (V c main_v78)) := by
  show (cfg2.win 2).cut (grid2.coords t) ((dat2 V c).after 2 t) = _
  rw [after2_2]
  unfold out2_2
  rw [View.canon_unit_zero offsets_zero]
  simp only [View.ld_unit_zero (S := S2000x128) offsets_zero, View.ld_unit_zero (S := S128x128) offsets_zero]
  obtain ⟨e0, e1, e2, e3, e4, e5⟩ := block_positions t
  funext j
  obtain ⟨r, q, rfl⟩ : ∃ (r : Fin 2000) (q : Fin 128), j = ix2 r q := ⟨j 0, j 1, eq_ix2 j⟩
  show k2_pay1 (iblk2 V c 0 t) (iblk2 V c 1 t) (ix2 r q)
      = product (M := 50000) (K := 128) (N := 128) (V c main_v77) (V c main_v78) (((cfg2.win 2).blk t).view.emb (ix2 r q))
  refine (block_apply (iblk2 V c 0 t) (iblk2 V c 1 t) r q).trans ?_
  unfold product
  refine Finset.sum_congr rfl fun k _ => ?_
  -- the left block's entry (r, k) is the left operand at the output row and column k
  have hl : iblk2 V c 0 t (ix2 r k) = V c main_v77 (ix2 ((((cfg2.win 2).blk t).view.emb (ix2 r q)) 0) k) := by
    show V c main_v77 (((cfg2.win 0).blk t).view.emb (ix2 r k)) = _
    refine congrArg (V c main_v77) ?_
    funext a; apply Fin.ext
    match a with
    | ⟨0, _⟩ => show win2_0.index t (0 : Fin 2) * 2000 + 1 * r.val = win2_2.index t (0 : Fin 2) * 2000 + 1 * r.val; omega
    | ⟨1, _⟩ => show win2_0.index t (1 : Fin 2) * 128 + 1 * k.val = k.val; omega
  -- the right block's entry (k, q) is the right operand at row k and the output column
  have hr : iblk2 V c 1 t (ix2 k q) = V c main_v78 (ix2 k ((((cfg2.win 2).blk t).view.emb (ix2 r q)) 1)) := by
    show V c main_v78 (((cfg2.win 1).blk t).view.emb (ix2 k q)) = _
    refine congrArg (V c main_v78) ?_
    funext a; apply Fin.ext
    match a with
    | ⟨0, _⟩ => show win2_1.index t (0 : Fin 2) * 128 + 1 * k.val = k.val; omega
    | ⟨1, _⟩ => show win2_1.index t (1 : Fin 2) * 128 + 1 * q.val = win2_2.index t (1 : Fin 2) * 128 + 1 * q.val; omega
  rw [hl, hr]

/-- An index of the output is in point t's block iff each coordinate is in the block's range on its axis. -/
theorem mem_block (t : Fin cfg2.N) (i : S50000x128.Idx) :
    i ∈ ((cfg2.win 2).blk t).view.set ↔ ∀ a : Fin 2, win2_2.index t a * S2000x128.size a ≤ (i a).val
      ∧ (i a).val < win2_2.index t a * S2000x128.size a + S2000x128.size a := by
  show i ∈ ((View.whole main_v79).slice (win2_2.rect t)).set ↔ _
  rw [View.set_slice_whole, Rect.mem_set_unit]
  exact Iff.rfl

/-- Row i of the output is written by point i / 2000: the row blocks cover the array. -/
theorem covered (i : S50000x128.Idx) :
    ∃ t : Fin cfg2.N, (cfg2.win 2).flush t = true ∧ i ∈ ((cfg2.win 2).blk t).view.set := by
  have hi0 : (i 0).val < 50000 := (i 0).isLt
  have hi1 : (i 1).val < 128 := (i 1).isLt
  have hN : cfg2.N = 25 := N_2
  have ht : (i 0).val / 2000 < cfg2.N := by omega
  obtain ⟨e0, e1, e2, e3, e4, e5⟩ := block_positions ⟨(i 0).val / 2000, ht⟩
  refine ⟨⟨(i 0).val / 2000, ht⟩, flush2_2 _, ?_⟩
  rw [mem_block]
  intro a
  match a with
  | ⟨0, _⟩ =>
    show win2_2.index ⟨(i 0).val / 2000, ht⟩ (0 : Fin 2) * 2000 ≤ (i 0).val
      ∧ (i 0).val < win2_2.index ⟨(i 0).val / 2000, ht⟩ (0 : Fin 2) * 2000 + 2000
    have e4' : win2_2.index ⟨(i 0).val / 2000, ht⟩ (0 : Fin 2) = (i 0).val / 2000 := e4
    omega
  | ⟨1, _⟩ =>
    show win2_2.index ⟨(i 0).val / 2000, ht⟩ (1 : Fin 2) * 128 ≤ (i 1).val
      ∧ (i 1).val < win2_2.index ⟨(i 0).val / 2000, ht⟩ (1 : Fin 2) * 128 + 128
    omega

/-- The output array after the region: the product of the operand arrays as the region found them. -/
theorem array (c : Dev nD) :
    (dat2 (F := Ideal) V c).arrAt 2 cfg2.N
      = product (M := 50000) (K := 128) (N := 128) (V c main_v77) (V c main_v78) :=
  (dat2 V c).arrAt_eq_of_cover 2 _ (fun t _ => written_back V c t) (covered)

end Cert.GraphConv.Region2

end
-- ==== Proof.KernelValue.lean ====
/-
  The idealized kernel computes the network.

  The buffer contents at the kernel's thirteen segment boundaries are followed from the launch memory to the result.
  The first stretch of host operations computes the graph quantities; they and the later layers' parameters are carried
  unchanged through every later stretch and region.  Each region's output array is the product of its operand arrays;
  its operands are the previous layer's features and the layer's weights, rounded — and rounding is the identity on
  the extended reals — so the array is the layer's linear transform.  The stretch after each region aggregates it.
  Chained, the result buffer ends at `network` of the argument arrays.
-/
import proofs.«137632_j412316860801_1_alg».proof.Proof.Stages
import proofs.«137632_j412316860801_1_alg».proof.Proof.Region0
import proofs.«137632_j412316860801_1_alg».proof.Proof.Region1
import proofs.«137632_j412316860801_1_alg».proof.Proof.Region2

set_option maxRecDepth 16384

noncomputable section

namespace Cert.GraphConv

open Idealize.ShloMosaic Idealize.ShloMosaic.TcCoe Idealize.SL.Sem Idealize.ShloMosaic.StableHlo
open Cert.KernelIdeal Cert.KernelIdeal.Gen

/-- Rounding to a shorter float format is the identity on the extended reals. -/
theorem rounded_eq {s : Shape} (x : FVec Ideal s .f32) (h : FTy.bits .bf16 < FTy.bits .f32) :
    (truncf .bf16 x h : s.Idx → EReal) = x := rfl

/-- The network with its three layers written out over the graph quantities. -/
theorem network_eq (x : FVec Ideal S50000x256 .f32) (ei : IVec S2x800000 32) (w : FVec Ideal S800000 .f32)
    (a1 : FVec Ideal S256x128 .f32) (b1 : FVec Ideal S128 .f32) (a2 : FVec Ideal S128x128 .f32) (b2 : FVec Ideal S128 .f32)
    (a3 : FVec Ideal S128x128 .f32) (b3 : FVec Ideal S128 .f32) :
    network x ei w a1 b1 a2 b2 a3 b3
      = aggregate (source ei) (target ei) (edgeNorm (source ei) (target ei) w) (selfNorm (target ei) w)
          (transformHidden (positivePart (aggregate (source ei) (target ei) (edgeNorm (source ei) (target ei) w)
            (selfNorm (target ei) w)
            (transformHidden (positivePart (aggregate (source ei) (target ei) (edgeNorm (source ei) (target ei) w)
              (selfNorm (target ei) w) (transformIn x a1) b1)) a2) b2)) a3) b3 := by
  unfold network layer
  rfl

variable (m : (ℓ : Loc nD τ sig) → Buf (Elt Ideal) ℓ) (ρ : Dev nD → PrngReg)

/-- Region 0 writes only its output array: what the later layers read is carried across it. -/
theorem carried_region0 (c : Dev nD) {ei : IVec S2x800000 32} {w : FVec Ideal S800000 .f32}
    {b1 : FVec Ideal S128 .f32} {a2 : FVec Ideal S128x128 .f32} {b2 : FVec Ideal S128 .f32} {a3 : FVec Ideal S128x128 .f32}
    {b3 : FVec Ideal S128 .f32} (h : Stages.Carried (W3 m ρ c) ei w b1 a2 b2 a3 b3) :
    Stages.Carried (W4 m ρ c) ei w b1 a2 b2 a3 b3 where
  src := (W4_of_ne m ρ c main_v1 (by decide)).trans h.src
  tgt := (W4_of_ne m ρ c main_v3 (by decide)).trans h.tgt
  nrm := (W4_of_ne m ρ c main_v28 (by decide)).trans h.nrm
  slf := (W4_of_ne m ρ c main_v30 (by decide)).trans h.slf
  bias1 := (W4_of_ne m ρ c main_arg4 (by decide)).trans h.bias1
  weights2 := (W4_of_ne m ρ c main_arg5 (by decide)).trans h.weights2
  bias2 := (W4_of_ne m ρ c main_arg6 (by decide)).trans h.bias2
  weights3 := (W4_of_ne m ρ c main_arg7 (by decide)).trans h.weights3
  bias3 := (W4_of_ne m ρ c main_arg8 (by decide)).trans h.bias3

/-- Region 1 writes only its output array: what the later layers read is carried across it. -/
theorem carried_region1 (c : Dev nD) {ei : IVec S2x800000 32} {w : FVec Ideal S800000 .f32}
    {b1 : FVec Ideal S128 .f32} {a2 : FVec Ideal S128x128 .f32} {b2 : FVec Ideal S128 .f32} {a3 : FVec Ideal S128x128 .f32}
    {b3 : FVec Ideal S128 .f32} (h : Stages.Carried (W7 m ρ c) ei w b1 a2 b2 a3 b3) :
    Stages.Carried (W8 m ρ c) ei w b1 a2 b2 a3 b3 where
  src := (W8_of_ne m ρ c main_v1 (by decide)).trans h.src
  tgt := (W8_of_ne m ρ c main_v3 (by decide)).trans h.tgt
  nrm := (W8_of_ne m ρ c main_v28 (by decide)).trans h.nrm
  slf := (W8_of_ne m ρ c main_v30 (by decide)).trans h.slf
  bias1 := (W8_of_ne m ρ c main_arg4 (by decide)).trans h.bias1
  weights2 := (W8_of_ne m ρ c main_arg5 (by decide)).trans h.weights2
  bias2 := (W8_of_ne m ρ c main_arg6 (by decide)).trans h.bias2
  weights3 := (W8_of_ne m ρ c main_arg7 (by decide)).trans h.weights3
  bias3 := (W8_of_ne m ρ c main_arg8 (by decide)).trans h.bias3

/-- Region 2 writes only its output array: what the later layers read is carried across it. -/
theorem carried_region2 (c : Dev nD) {ei : IVec S2x800000 32} {w : FVec Ideal S800000 .f32}
    {b1 : FVec Ideal S128 .f32} {a2 : FVec Ideal S128x128 .f32} {b2 : FVec Ideal S128 .f32} {a3 : FVec Ideal S128x128 .f32}
    {b3 : FVec Ideal S128 .f32} (h : Stages.Carried (W11 m ρ c) ei w b1 a2 b2 a3 b3) :
    Stages.Carried (W12 m ρ c) ei w b1 a2 b2 a3 b3 where
  src := (W12_of_ne m ρ c main_v1 (by decide)).trans h.src
  tgt := (W12_of_ne m ρ c main_v3 (by decide)).trans h.tgt
  nrm := (W12_of_ne m ρ c main_v28 (by decide)).trans h.nrm
  slf := (W12_of_ne m ρ c main_v30 (by decide)).trans h.slf
  bias1 := (W12_of_ne m ρ c main_arg4 (by decide)).trans h.bias1
  weights2 := (W12_of_ne m ρ c main_arg5 (by decide)).trans h.weights2
  bias2 := (W12_of_ne m ρ c main_arg6 (by decide)).trans h.bias2
  weights3 := (W12_of_ne m ρ c main_arg7 (by decide)).trans h.weights3
  bias3 := (W12_of_ne m ρ c main_arg8 (by decide)).trans h.bias3

/-- The result buffer at the last boundary is the network of the argument arrays as launched. -/
theorem kernel_value (c : Dev nD) :
    W13 m ρ c (Proc.devRef .tc main_v98)
      = network (F := Ideal) (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8)) := by
  -- the graph quantities and the parameters, carried from the first stretch to the last
  have C3 : Stages.Carried (W3 m ρ c) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) := Stages.carried_start (W0 m ρ c)
  have C4 := carried_region0 m ρ c C3
  have C7 : Stages.Carried (W7 m ρ c) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) := Stages.carried_afterFirst C4
  have C8 := carried_region1 m ρ c C7
  have C11 : Stages.Carried (W11 m ρ c) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) := Stages.carried_afterSecond C8
  have C12 := carried_region2 m ρ c C11
  -- the first product's operands are the node features and the first weights
  have x0 : W3 m ρ c (Proc.devRef .tc main_v31) = (m ((c : Thread nD τ).loc main_arg0)) := (Stages.features_in (W0 m ρ c)).trans (rounded_eq _ _)
  have a1 : W3 m ρ c (Proc.devRef .tc main_v32) = (m ((c : Thread nD τ).loc main_arg3)) := (Stages.weights_in (W0 m ρ c)).trans (rounded_eq _ _)
  -- the first layer's transform: region 0's array
  have p1 : W4 m ρ c (Proc.devRef .tc main_v33) = transformIn (F := Ideal) (m ((c : Thread nD τ).loc main_arg0)) (m ((c : Thread nD τ).loc main_arg3)) := by
    refine (W4_arr m ρ c 2).trans ((Region0.array (V3 m ρ) c).trans ?_)
    rw [transformIn_eq]
    exact congrArg₂ (product (M := 50000) (K := 256) (N := 128)) x0 a1
  -- the first layer's features, and the second layer's weights, as the second product finds them
  have l1 : W7 m ρ c (Proc.devRef .tc main_v54) = positivePart (F := Ideal) (aggregate (source (m ((c : Thread nD τ).loc main_arg1))) (target (m ((c : Thread nD τ).loc main_arg1))) (edgeNorm (source (m ((c : Thread nD τ).loc main_arg1))) (target (m ((c : Thread nD τ).loc main_arg1))) (m ((c : Thread nD τ).loc main_arg2))) (selfNorm (target (m ((c : Thread nD τ).loc main_arg1))) (m ((c : Thread nD τ).loc main_arg2))) (transformIn (m ((c : Thread nD τ).loc main_arg0)) (m ((c : Thread nD τ).loc main_arg3))) (m ((c : Thread nD τ).loc main_arg4))) := by
    refine (Stages.features_afterFirst (W4 m ρ c)).trans ?_
    rw [C4.src, C4.tgt, C4.nrm, C4.slf, C4.bias1, p1]
    exact rounded_eq _ _
  have a2 : W7 m ρ c (Proc.devRef .tc main_v55) = (m ((c : Thread nD τ).loc main_arg5)) := by
    refine (Stages.weights_afterFirst (W4 m ρ c)).trans ?_
    rw [C4.weights2]
    exact rounded_eq _ _
  -- the second layer's transform: region 1's array
  have p2 : W8 m ρ c (Proc.devRef .tc main_v56) = transformHidden (F := Ideal) (positivePart (aggregate (source (m ((c : Thread nD τ).loc main_arg1))) (target (m ((c : Thread nD τ).loc main_arg1))) (edgeNorm (source (m ((c : Thread nD τ).loc main_arg1))) (target (m ((c : Thread nD τ).loc main_arg1))) (m ((c : Thread nD τ).loc main_arg2))) (selfNorm (target (m ((c : Thread nD τ).loc main_arg1))) (m ((c : Thread nD τ).loc main_arg2))) (transformIn (m ((c : Thread nD τ).loc main_arg0)) (m ((c : Thread nD τ).loc main_arg3))) (m ((c : Thread nD τ).loc main_arg4)))) (m ((c : Thread nD τ).loc main_arg5)) := by
    refine (W8_arr m ρ c 2).trans ((Region1.array (V7 m ρ) c).trans ?_)
    rw [transformHidden_eq]
    exact congrArg₂ (product (M := 50000) (K := 128) (N := 128)) l1 a2
  have l2 : W11 m ρ c (Proc.devRef .tc main_v77) = positivePart (F := Ideal) (aggregate (source (m ((c : Thread nD τ).loc main_arg1))) (target (m ((c : Thread nD τ).loc main_arg1))) (edgeNorm (source (m ((c : Thread nD τ).loc main_arg1))) (target (m ((c : Thread nD τ).loc main_arg1))) (m ((c : Thread nD τ).loc main_arg2))) (selfNorm (target (m ((c : Thread nD τ).loc main_arg1))) (m ((c : Thread nD τ).loc main_arg2))) (transformHidden (positivePart (aggregate (source (m ((c : Thread nD τ).loc main_arg1))) (target (m ((c : Thread nD τ).loc main_arg1))) (edgeNorm (source (m ((c : Thread nD τ).loc main_arg1))) (target (m ((c : Thread nD τ).loc main_arg1))) (m ((c : Thread nD τ).loc main_arg2))) (selfNorm (target (m ((c : Thread nD τ).loc main_arg1))) (m ((c : Thread nD τ).loc main_arg2))) (transformIn (m ((c : Thread nD τ).loc main_arg0)) (m ((c : Thread nD τ).loc main_arg3))) (m ((c : Thread nD τ).loc main_arg4)))) (m ((c : Thread nD τ).loc main_arg5))) (m ((c : Thread nD τ).loc main_arg6))) := by
    refine (Stages.features_afterSecond (W8 m ρ c)).trans ?_
    rw [C8.src, C8.tgt, C8.nrm, C8.slf, C8.bias2, p2]
    exact rounded_eq _ _
  have a3 : W11 m ρ c (Proc.devRef .tc main_v78) = (m ((c : Thread nD τ).loc main_arg7)) := by
    refine (Stages.weights_afterSecond (W8 m ρ c)).trans ?_
    rw [C8.weights3]
    exact rounded_eq _ _
  -- the third layer's transform: region 2's array
  have p3 : W12 m ρ c (Proc.devRef .tc main_v79) = transformHidden (F := Ideal) (positivePart (aggregate (source (m ((c : Thread nD τ).loc main_arg1))) (target (m ((c : Thread nD τ).loc main_arg1))) (edgeNorm (source (m ((c : Thread nD τ).loc main_arg1))) (target (m ((c : Thread nD τ).loc main_arg1))) (m ((c : Thread nD τ).loc main_arg2))) (selfNorm (target (m ((c : Thread nD τ).loc main_arg1))) (m ((c : Thread nD τ).loc main_arg2))) (transformHidden (positivePart (aggregate (source (m ((c : Thread nD τ).loc main_arg1))) (target (m ((c : Thread nD τ).loc main_arg1))) (edgeNorm (source (m ((c : Thread nD τ).loc main_arg1))) (target (m ((c : Thread nD τ).loc main_arg1))) (m ((c : Thread nD τ).loc main_arg2))) (selfNorm (target (m ((c : Thread nD τ).loc main_arg1))) (m ((c : Thread nD τ).loc main_arg2))) (transformIn (m ((c : Thread nD τ).loc main_arg0)) (m ((c : Thread nD τ).loc main_arg3))) (m ((c : Thread nD τ).loc main_arg4)))) (m ((c : Thread nD τ).loc main_arg5))) (m ((c : Thread nD τ).loc main_arg6)))) (m ((c : Thread nD τ).loc main_arg7)) := by
    refine (W12_arr m ρ c 2).trans ((Region2.array (V11 m ρ) c).trans ?_)
    rw [transformHidden_eq]
    exact congrArg₂ (product (M := 50000) (K := 128) (N := 128)) l2 a3
  -- the third layer's aggregation is the result
  refine (Stages.result_afterThird (W12 m ρ c)).trans ?_
  rw [C12.src, C12.tgt, C12.nrm, C12.slf, C12.bias3, p3]
  exact (network_eq _ _ _ _ _ _ _ _ _).symm

end Cert.GraphConv

end
-- ==== Proof.ReferenceValue.lean ====
/-
  The reference program computes the network.

  The reference's @main is one line of host operations; its result, composed from the arguments, recomputes the
  degrees and the normalisations in every layer and is otherwise, operation for operation, the three layers of
  `network`: the named pieces unfold to that composed term.
-/
import proofs.«137632_j412316860801_1_alg».proof.Proof.Gen.ReferenceIdeal.Run
import proofs.«137632_j412316860801_1_alg».proof.Proof.Network

set_option maxRecDepth 16384

noncomputable section

namespace Cert.GraphConv

open Idealize.ShloMosaic Idealize.ShloMosaic.TcCoe Idealize.SL.Sem
open Cert.ReferenceIdeal

variable {F : FTy → Type} [FloatOps F]

set_option maxHeartbeats 4000000 in
/-- The reference's result, as its run composes it from the arguments, is the network of the arguments. -/
theorem reference_value (m : (ℓ : Loc nD τ sig) → Buf (Elt F) ℓ) (c : Dev nD) :
    Cert.ReferenceIdeal.Value.res_main_v146 m c
      = network (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8)) := by
  unfold Cert.ReferenceIdeal.Value.res_main_v146
  rfl

end Cert.GraphConv

end
-- ==== Proof.lean ====
/-
  A three-layer graph convolution on 50000 nodes and 800000 weighted edges: the kernel against its reference.

  Both programs compute, layer by layer,
      out i = Σ_{e : target e = i} (d(source e) · w e · d(target e)) · h(source e)  +  d(i)² · h i  +  b,
  with h the previous layer's features times the layer's weights, d = deg^(-1/2) where the degree (one for the
  self-loop plus the weights of the incoming edges) is positive and 0 elsewhere, and the positive part taken between
  layers (Proof/Network.lean).  They differ in two ways.  The kernel forms each h = x · W in a gridded matrix-product
  kernel on operands rounded to a shorter format, 25 row blocks of 2000 rows each, where the reference takes one host
  product; on the extended reals rounding is the identity, a block's entry is the same sum over the contracted
  index, and the row blocks tile the array (Proof/Region0.lean … Region2.lean, Proof/Products.lean).  And the kernel
  computes the degrees and the normalisations once, before the first layer, where the reference recomputes them in
  every layer; they are the same functions of the edge index and the weights (Proof/Stages.lean,
  Proof/KernelValue.lean, Proof/ReferenceValue.lean).  No law of arithmetic is needed beyond that: both results are
  `network` of the argument arrays, so the inputs' finiteness is never used.

  The frames: the two kernel programs' are the generated frame certificates; the reference's is its generated run with
  the result dropped.  The idealization rewrote no operation, so `preserves` holds trivially.
-/
import proofs.«137632_j412316860801_1_alg».proof.Defs
import proofs.«137632_j412316860801_1_alg».proof.Proof.Gen.Kernel
import proofs.«137632_j412316860801_1_alg».proof.Proof.Gen.Kernel.Frame
import proofs.«137632_j412316860801_1_alg».proof.Proof.Gen.KernelIdeal
import proofs.«137632_j412316860801_1_alg».proof.Proof.Gen.KernelIdeal.Frame
import proofs.«137632_j412316860801_1_alg».proof.Proof.Gen.ReferenceIdeal
import proofs.«137632_j412316860801_1_alg».proof.Proof.Gen.ReferenceIdeal.Run
import proofs.«137632_j412316860801_1_alg».proof.Proof.Gen.Pre_finite_inputs
import proofs.«137632_j412316860801_1_alg».proof.Proof.KernelRun
import proofs.«137632_j412316860801_1_alg».proof.Proof.KernelValue
import proofs.«137632_j412316860801_1_alg».proof.Proof.ReferenceValue
import Idealize.ShloMosaic.Adequacy
import Idealize.ShloMosaic.Init

set_option maxRecDepth 16384

noncomputable section

namespace Cert.Proof

open Idealize.ShloMosaic Idealize.ShloMosaic.TcCoe Idealize.SL.Sem

/-- The kernel as printed runs and leaves its arguments as launched. -/
theorem frame_kernel : Cert.frame_Kernel := fun m ρ _ => Cert.Kernel.Gen.frame m ρ

/-- The idealized kernel runs and leaves its arguments as launched. -/
theorem frame_kernelIdeal : Cert.frame_KernelIdeal := fun m ρ _ => Cert.KernelIdeal.Gen.frame m ρ

/-- The idealized reference runs and leaves its arguments as launched: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both idealized programs end with the network of the arguments in
    their result buffers, and their arguments unchanged. -/
theorem algebraic : Cert.algebraic_KernelIdeal_ReferenceIdeal := by
  intro m ρ m' ρ' _ hagree
  refine ⟨fun c => Cert.GraphConv.network (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.GraphConv.kernel_value m ρ c), (h c).2⟩) (Cert.GraphConv.kernel_run m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8⟩ := hagree c
    rw [Cert.GraphConv.reference_value, h0, h1, h2, h3, h4, h5, h6, h7, h8]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
